-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x2x16384 : Shape := ⟨4, ![32, 32, 2, 16384]⟩
abbrev S32x32x1x1 : Shape := ⟨4, ![32, 32, 1, 1]⟩
abbrev S32x64x128x128 : Shape := ⟨4, ![32, 64, 128, 128]⟩
abbrev S32x2x1 : Shape := ⟨3, ![32, 2, 1]⟩
abbrev S_ : Shape := ⟨0, ![]⟩

class Facts : Prop where
  bcast_S_S32x32x2x16384 : S_.BroadcastsInDim S32x32x2x16384 (![] : Fin 0 → Fin S32x32x2x16384.rank)
  reducesTo_S32x32x2x16384_S_d0_1_2_3 : S32x32x2x16384.ReducesTo [0, 1, 2, 3] S_
  h_S_ : 0 < S_.numel
  bcast_S_S32x32x1x1 : S_.BroadcastsInDim S32x32x1x1 (![] : Fin 0 → Fin S32x32x1x1.rank)
  reducesTo_S32x32x1x1_S_d0_1_2_3 : S32x32x1x1.ReducesTo [0, 1, 2, 3] S_
  bcast_S_S32x64x128x128 : S_.BroadcastsInDim S32x64x128x128 (![] : Fin 0 → Fin S32x64x128x128.rank)
  reducesTo_S32x64x128x128_S_d0_1_2_3 : S32x64x128x128.ReducesTo [0, 1, 2, 3] S_
  bcast_S_S32x2x1 : S_.BroadcastsInDim S32x2x1 (![] : Fin 0 → Fin S32x2x1.rank)
  reducesTo_S32x2x1_S_d0_1_2 : S32x2x1.ReducesTo [0, 1, 2] S_

variable [Facts]

def fn_part1 {F : FTy → Type} [FloatOps F] (main_arg4 : FVec F S32x2x1 .f32) (main_arg5 : FVec F S32x2x1 .f32) (main_v13 : IVec S_ 1) (main_v16 : IVec S32x64x128x128 1) : IVec S_ 1 :=
  let main_c_5 : IVec S_ 1 := constantI S_ 1 1#1
  let main_v17 : IVec S_ 1 := (fun x v => Host.reduce IntOp.andi x v reducesTo_S32x64x128x128_S_d0_1_2_3 h_S_) main_v16 main_c_5
  let main_v18 : IVec S_ 1 := andi main_v13 main_v17
  let main_v19 : FVec F S32x2x1 .f32 := Host.absf main_arg4
  let main_cst_6 : FVec F S_ .f32 := constant S_ .f32 0x7F800000#32
  let main_v20 : FVec F S32x2x1 .f32 := broadcastInDim S32x2x1 ![] bcast_S_S32x2x1 main_cst_6
  let main_v21 : IVec S32x2x1 1 := cmpf .olt main_v19 main_v20
  let main_c_7 : IVec S_ 1 := constantI S_ 1 1#1
  let main_v22 : IVec S_ 1 := (fun x v => Host.reduce IntOp.andi x v reducesTo_S32x2x1_S_d0_1_2 h_S_) main_v21 main_c_7
  let main_v23 : IVec S_ 1 := andi main_v18 main_v22
  let main_v24 : FVec F S32x2x1 .f32 := Host.absf main_arg5
  let main_cst_8 : FVec F S_ .f32 := constant S_ .f32 0x7F800000#32
  let main_v25 : FVec F S32x2x1 .f32 := broadcastInDim S32x2x1 ![] bcast_S_S32x2x1 main_cst_8
  let main_v26 : IVec S32x2x1 1 := cmpf .olt main_v24 main_v25
  let main_c_9 : IVec S_ 1 := constantI S_ 1 1#1
  let main_v27 : IVec S_ 1 := (fun x v => Host.reduce IntOp.andi x v reducesTo_S32x2x1_S_d0_1_2 h_S_) main_v26 main_c_9
  let main_v28 : IVec S_ 1 := andi main_v23 main_v27
  main_v28

def fn {F : FTy → Type} [FloatOps F] (main_arg0 : FVec F S32x32x2x16384 .f32) (main_arg1 : FVec F S32x32x1x1 .f32) (main_arg2 : FVec F S32x32x1x1 .f32) (main_arg3 : FVec F S32x64x128x128 .f32) (main_arg4 : FVec F S32x2x1 .f32) (main_arg5 : FVec F S32x2x1 .f32) : IVec S_ 1 :=
  let main_v0 : FVec F S32x32x2x16384 .f32 := Host.absf main_arg0
  let main_cst : FVec F S_ .f32 := constant S_ .f32 0x7F800000#32
  let main_v1 : FVec F S32x32x2x16384 .f32 := broadcastInDim S32x32x2x16384 ![] bcast_S_S32x32x2x16384 main_cst
  let main_v2 : IVec S32x32x2x16384 1 := cmpf .olt main_v0 main_v1
  let main_c : IVec S_ 1 := constantI S_ 1 1#1
  let main_v3 : IVec S_ 1 := (fun x v => Host.reduce IntOp.andi x v reducesTo_S32x32x2x16384_S_d0_1_2_3 h_S_) main_v2 main_c
  let main_v4 : FVec F S32x32x1x1 .f32 := Host.absf main_arg1
  let main_cst_0 : FVec F S_ .f32 := constant S_ .f32 0x7F800000#32
  let main_v5 : FVec F S32x32x1x1 .f32 := broadcastInDim S32x32x1x1 ![] bcast_S_S32x32x1x1 main_cst_0
  let main_v6 : IVec S32x32x1x1 1 := cmpf .olt main_v4 main_v5
  let main_c_1 : IVec S_ 1 := constantI S_ 1 1#1
  let main_v7 : IVec S_ 1 := (fun x v => Host.reduce IntOp.andi x v reducesTo_S32x32x1x1_S_d0_1_2_3 h_S_) main_v6 main_c_1
  let main_v8 : IVec S_ 1 := andi main_v3 main_v7
  let main_v9 : FVec F S32x32x1x1 .f32 := Host.absf main_arg2
  let main_cst_2 : FVec F S_ .f32 := constant S_ .f32 0x7F800000#32
  let main_v10 : FVec F S32x32x1x1 .f32 := broadcastInDim S32x32x1x1 ![] bcast_S_S32x32x1x1 main_cst_2
  let main_v11 : IVec S32x32x1x1 1 := cmpf .olt main_v9 main_v10
  let main_c_3 : IVec S_ 1 := constantI S_ 1 1#1
  let main_v12 : IVec S_ 1 := (fun x v => Host.reduce IntOp.andi x v reducesTo_S32x32x1x1_S_d0_1_2_3 h_S_) main_v11 main_c_3
  let main_v13 : IVec S_ 1 := andi main_v8 main_v12
  let main_v14 : FVec F S32x64x128x128 .f32 := Host.absf main_arg3
  let main_cst_4 : FVec F S_ .f32 := constant S_ .f32 0x7F800000#32
  let main_v15 : FVec F S32x64x128x128 .f32 := broadcastInDim S32x64x128x128 ![] bcast_S_S32x64x128x128 main_cst_4
  let main_v16 : IVec S32x64x128x128 1 := cmpf .olt main_v14 main_v15
  fn_part1 (F := F) main_arg4 main_arg5 main_v13 main_v16
-- ==== Kernel.lean ====
abbrev S32x32x2x16384 : Shape := ⟨4, ![32, 32, 2, 16384]⟩
abbrev S32x32x1x1 : Shape := ⟨4, ![32, 32, 1, 1]⟩
abbrev S32x64x128x128 : Shape := ⟨4, ![32, 64, 128, 128]⟩
abbrev S32x2x1 : Shape := ⟨3, ![32, 2, 1]⟩
abbrev S32x64x16384 : Shape := ⟨3, ![32, 64, 16384]⟩
abbrev S32x32x2x1 : Shape := ⟨4, ![32, 32, 2, 1]⟩
abbrev S32x64x1 : Shape := ⟨3, ![32, 64, 1]⟩
abbrev S64x1 : Shape := ⟨2, ![64, 1]⟩
abbrev S64x16384 : Shape := ⟨2, ![64, 16384]⟩
abbrev S2x32x16384 : Shape := ⟨3, ![2, 32, 16384]⟩
abbrev S2x32x1 : Shape := ⟨3, ![2, 32, 1]⟩
abbrev S32x1 : Shape := ⟨2, ![32, 1]⟩
abbrev S32x16384 : Shape := ⟨2, ![32, 16384]⟩
abbrev S1x32x1 : Shape := ⟨3, ![1, 32, 1]⟩
abbrev S32x2x16384 : Shape := ⟨3, ![32, 2, 16384]⟩

abbrev nBuf : Space → Nat
  | .hbm => 20
  | .vmem => 18
  | .smem => 0
  | _ => 0

abbrev bufTy : (tb : Table) → Fin (tcTables nBuf tb) → BufTy
  | .hbm, ⟨0, _⟩ => ⟨S32x32x2x16384, .f32⟩
  | .hbm, ⟨1, _⟩ => ⟨S32x32x1x1, .f32⟩
  | .hbm, ⟨2, _⟩ => ⟨S32x32x1x1, .f32⟩
  | .hbm, ⟨3, _⟩ => ⟨S32x64x128x128, .f32⟩
  | .hbm, ⟨4, _⟩ => ⟨S32x2x1, .f32⟩
  | .hbm, ⟨5, _⟩ => ⟨S32x2x1, .f32⟩
  | .hbm, ⟨6, _⟩ => ⟨S32x64x16384, .f32⟩
  | .hbm, ⟨7, _⟩ => ⟨S32x64x16384, .f32⟩
  | .hbm, ⟨8, _⟩ => ⟨S32x32x2x1, .f32⟩
  | .hbm, ⟨9, _⟩ => ⟨S32x64x1, .f32⟩
  | .hbm, ⟨10, _⟩ => ⟨S32x32x2x1, .f32⟩
  | .hbm, ⟨11, _⟩ => ⟨S32x64x1, .f32⟩
  | .hbm, ⟨12, _⟩ => ⟨S64x1, .f32⟩
  | .hbm, ⟨13, _⟩ => ⟨S64x1, .f32⟩
  | .hbm, ⟨14, _⟩ => ⟨S32x64x16384, .f32⟩
  | .hbm, ⟨15, _⟩ => ⟨S64x16384, .f32⟩
  | .hbm, ⟨16, _⟩ => ⟨S64x16384, .f32⟩
  | .hbm, ⟨17, _⟩ => ⟨S32x32x2x16384, .f32⟩
  | .hbm, ⟨18, _⟩ => ⟨S32x2x16384, .f32⟩
  | .hbm, ⟨19, _⟩ => ⟨S32x2x16384, .f32⟩
  | .local _ .vmem, ⟨0, _⟩ => ⟨S2x32x16384, .f32⟩
  | .local _ .vmem, ⟨1, _⟩ => ⟨S2x32x16384, .f32⟩
  | .local _ .vmem, ⟨2, _⟩ => ⟨S2x32x16384, .f32⟩
  | .local _ .vmem, ⟨3, _⟩ => ⟨S2x32x16384, .f32⟩
  | .local _ .vmem, ⟨4, _⟩ => ⟨S2x32x1, .f32⟩
  | .local _ .vmem, ⟨5, _⟩ => ⟨S2x32x1, .f32⟩
  | .local _ .vmem, ⟨6, _⟩ => ⟨S2x32x1, .f32⟩
  | .local _ .vmem, ⟨7, _⟩ => ⟨S2x32x1, .f32⟩
  | .local _ .vmem, ⟨8, _⟩ => ⟨S32x1, .f32⟩
  | .local _ .vmem, ⟨9, _⟩ => ⟨S32x1, .f32⟩
  | .local _ .vmem, ⟨10, _⟩ => ⟨S32x1, .f32⟩
  | .local _ .vmem, ⟨11, _⟩ => ⟨S32x1, .f32⟩
  | .local _ .vmem, ⟨12, _⟩ => ⟨S2x32x16384, .f32⟩
  | .local _ .vmem, ⟨13, _⟩ => ⟨S2x32x16384, .f32⟩
  | .local _ .vmem, ⟨14, _⟩ => ⟨S32x16384, .f32⟩
  | .local _ .vmem, ⟨15, _⟩ => ⟨S32x16384, .f32⟩
  | .local _ .vmem, ⟨16, _⟩ => ⟨S32x16384, .f32⟩
  | .local _ .vmem, ⟨17, _⟩ => ⟨S32x16384, .f32⟩
  | _, _ => ⟨S32x32x2x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x32x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x32x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S32x16384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S32x32x2x16384_S32x64x16384 : S32x32x2x16384.ShapeCasts S32x64x16384
  shapeCasts_S32x64x128x128_S32x64x16384 : S32x64x128x128.ShapeCasts S32x64x16384
  bcast_S32x32x1x1_S32x32x2x1_0_1_2_3 : S32x32x1x1.BroadcastsInDim S32x32x2x1 (![0, 1, 2, 3] : Fin 4 → Fin S32x32x2x1.rank)
  shapeCasts_S32x32x2x1_S32x64x1 : S32x32x2x1.ShapeCasts S32x64x1
  shapeCasts_S32x2x1_S64x1 : S32x2x1.ShapeCasts S64x1
  inb_S32x16384_S32x16384_0_0 : ∀ a, (![0, 0] : Fin 2 → Nat) a + S32x16384.size a ≤ S32x16384.size a
  h_S32x16384 : 0 < S32x16384.numel
  inb_S2x32x16384_S2x32x16384_0_0_0 : ∀ a, (![0, 0, 0] : Fin 3 → Nat) a + S2x32x16384.size a ≤ S2x32x16384.size a
  h_S2x32x16384 : 0 < S2x32x16384.numel
  shapeCasts_S2x32x16384_S2x32x16384 : S2x32x16384.ShapeCasts S2x32x16384
  inb_S2x32x1_S2x32x1_0_0_0 : ∀ a, (![0, 0, 0] : Fin 3 → Nat) a + S2x32x1.size a ≤ S2x32x1.size a
  h_S2x32x1 : 0 < S2x32x1.numel
  shapeCasts_S2x32x1_S2x32x1 : S2x32x1.ShapeCasts S2x32x1
  inb_S32x1_S32x1_0_0 : ∀ a, (![0, 0] : Fin 2 → Nat) a + S32x1.size a ≤ S32x1.size a
  h_S32x1 : 0 < S32x1.numel
  shapeCasts_S32x1_S32x1 : S32x1.ShapeCasts S32x1
  shapeCasts_S32x1_S1x32x1 : S32x1.ShapeCasts S1x32x1
  broadcasts_S2x32x1_S2x32x16384 : S2x32x1.Broadcasts S2x32x16384
  broadcasts_S1x32x1_S2x32x16384 : S1x32x1.Broadcasts S2x32x16384
  reduces_S2x32x16384_S32x16384 : S2x32x16384.Reduces [0] S32x16384
  shapeCasts_S32x16384_S32x16384 : S32x16384.ShapeCasts S32x16384
  shapeCasts_S32x64x16384_S32x32x2x16384 : S32x64x16384.ShapeCasts S32x32x2x16384
  shapeCasts_S64x16384_S32x2x16384 : S64x16384.ShapeCasts S32x2x16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x32x16384.size a ≤ S32x64x16384.size a
  hwx0_0 : ∀ i : grid0.Coords, EltTy.bits .f32 = 32 ∨ (Rect.block (s := S32x64x16384) S2x32x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x32x16384.size a ≤ S32x64x16384.size a
  hwx0_1 : ∀ i : grid0.Coords, EltTy.bits .f32 = 32 ∨ (Rect.block (s := S32x64x16384) S2x32x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x32x1.size a ≤ S32x64x1.size a
  hwx0_2 : ∀ i : grid0.Coords, EltTy.bits .f32 = 32 ∨ (Rect.block (s := S32x64x1) S2x32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x32x1.size a ≤ S32x64x1.size a
  hwx0_3 : ∀ i : grid0.Coords, EltTy.bits .f32 = 32 ∨ (Rect.block (s := S32x64x1) S2x32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S64x1.size a
  hwx0_4 : ∀ i : grid0.Coords, EltTy.bits .f32 = 32 ∨ (Rect.block (s := S64x1) S32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S64x1.size a
  hwx0_5 : ∀ i : grid0.Coords, EltTy.bits .f32 = 32 ∨ (Rect.block (s := S64x1) S32x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x32x16384.size a ≤ S32x64x16384.size a
  hwx0_6 : ∀ i : grid0.Coords, EltTy.bits .f32 = 32 ∨ (Rect.block (s := S32x64x16384) S2x32x16384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x16384.size a ≤ S64x16384.size a
  hwx0_7 : ∀ i : grid0.Coords, EltTy.bits .f32 = 32 ∨ (Rect.block (s := S64x16384) S32x16384.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x16384.size a ≤ S64x16384.size a
  hwx0_8 : ∀ i : grid0.Coords, EltTy.bits .f32 = 32 ∨ (Rect.block (s := S64x16384) S32x16384.size (cc0_transform_8 i) (hinb0_8 i)).WholeWords (EltTy.packing .f32)

variable [Facts₀]

abbrev win0_0 : Pipeline.Window sig grid0 :=
  Pipeline.Window.ofSpec (Memref.whole main_v0) S2x32x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x32x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2x32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2x32x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S32x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S32x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S2x32x16384.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S32x16384.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_2) S32x16384.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x32x2x16384 : Shape := ⟨4, ![32, 32, 2, 16384]⟩
abbrev S32x32x1x1 : Shape := ⟨4, ![32, 32, 1, 1]⟩
abbrev S32x64x128x128 : Shape := ⟨4, ![32, 64, 128, 128]⟩
abbrev S32x2x1 : Shape := ⟨3, ![32, 2, 1]⟩
abbrev S1x32x2x1 : Shape := ⟨4, ![1, 32, 2, 1]⟩
abbrev S_ : Shape := ⟨0, ![]⟩
abbrev S32x2x16384 : Shape := ⟨3, ![32, 2, 16384]⟩

abbrev nBuf : Space → Nat
  | .hbm => 48
  | .vmem => 0
  | .smem => 0
  | _ => 0

abbrev bufTy : (tb : Table) → Fin (tcTables nBuf tb) → BufTy
  | .hbm, ⟨0, _⟩ => ⟨S32x32x2x16384, .f32⟩
  | .hbm, ⟨1, _⟩ => ⟨S32x32x1x1, .f32⟩
  | .hbm, ⟨2, _⟩ => ⟨S32x32x1x1, .f32⟩
  | .hbm, ⟨3, _⟩ => ⟨S32x64x128x128, .f32⟩
  | .hbm, ⟨4, _⟩ => ⟨S32x2x1, .f32⟩
  | .hbm, ⟨5, _⟩ => ⟨S32x2x1, .f32⟩
  | .hbm, ⟨6, _⟩ => ⟨S32x32x2x16384, .f32⟩
  | .hbm, ⟨7, _⟩ => ⟨S32x32x2x16384, .f32⟩
  | .hbm, ⟨8, _⟩ => ⟨S32x32x2x16384, .f32⟩
  | .hbm, ⟨9, _⟩ => ⟨S32x32x2x16384, .f32⟩
  | .hbm, ⟨10, _⟩ => ⟨S32x32x2x16384, .f32⟩
  | .hbm, ⟨11, _⟩ => ⟨S1x32x2x1, .f32⟩
  | .hbm, ⟨12, _⟩ => ⟨S32x32x2x16384, .f32⟩
  | .hbm, ⟨13, _⟩ => ⟨S32x32x2x16384, .f32⟩
  | .hbm, ⟨14, _⟩ => ⟨S1x32x2x1, .f32⟩
  | .hbm, ⟨15, _⟩ => ⟨S32x32x2x16384, .f32⟩
  | .hbm, ⟨16, _⟩ => ⟨S32x32x2x16384, .f32⟩
  | .hbm, ⟨17, _⟩ => ⟨S_, .f32⟩
  | .hbm, ⟨18, _⟩ => ⟨S32x32x2x16384, .f32⟩
  | .hbm, ⟨19, _⟩ => ⟨S32x32x2x16384, .f32⟩
  | .hbm, ⟨20, _⟩ => ⟨S32x32x2x16384, .f32⟩
  | .hbm, ⟨21, _⟩ => ⟨S32x32x2x16384, .f32⟩
  | .hbm, ⟨22, _⟩ => ⟨S_, .f32⟩
  | .hbm, ⟨23, _⟩ => ⟨S32x32x2x16384, .f32⟩
  | .hbm, ⟨24, _⟩ => ⟨S32x32x2x16384, .f32⟩
  | .hbm, ⟨25, _⟩ => ⟨S_, .f32⟩
  | .hbm, ⟨26, _⟩ => ⟨S32x32x2x16384, .f32⟩
  | .hbm, ⟨27, _⟩ => ⟨S32x32x2x16384, .f32⟩
  | .hbm, ⟨28, _⟩ => ⟨S32x32x2x16384, .f32⟩
  | .hbm, ⟨29, _⟩ => ⟨S_, .f32⟩
  | .hbm, ⟨30, _⟩ => ⟨S32x32x2x16384, .f32⟩
  | .hbm, ⟨31, _⟩ => ⟨S32x32x2x16384, .f32⟩
  | .hbm, ⟨32, _⟩ => ⟨S32x32x2x16384, .f32⟩
  | .hbm, ⟨33, _⟩ => ⟨S_, .f32⟩
  | .hbm, ⟨34, _⟩ => ⟨S32x32x2x16384, .f32⟩
  | .hbm, ⟨35, _⟩ => ⟨S32x32x2x16384, .f32⟩
  | .hbm, ⟨36, _⟩ => ⟨S32x32x2x16384, .f32⟩
  | .hbm, ⟨37, _⟩ => ⟨S32x32x2x16384, .f32⟩
  | .hbm, ⟨38, _⟩ => ⟨S32x32x2x16384, .f32⟩
  | .hbm, ⟨39, _⟩ => ⟨S_, .f32⟩
  | .hbm, ⟨40, _⟩ => ⟨S32x2x16384, .f32⟩
  | .hbm, ⟨41, _⟩ => ⟨S_, .f32⟩
  | .hbm, ⟨42, _⟩ => ⟨S32x2x16384, .f32⟩
  | .hbm, ⟨43, _⟩ => ⟨S1x32x2x1, .f32⟩
  | .hbm, ⟨44, _⟩ => ⟨S32x32x2x16384, .f32⟩
  | .hbm, ⟨45, _⟩ => ⟨S32x32x2x16384, .f32⟩
  | .hbm, ⟨46, _⟩ => ⟨S32x32x2x16384, .f32⟩
  | .hbm, ⟨47, _⟩ => ⟨S32x32x2x16384, .f32⟩
  | _, _ => ⟨S32x32x2x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  shapeCasts_S32x64x128x128_S32x32x2x16384 : S32x64x128x128.ShapeCasts S32x32x2x16384
  bcast_S32x32x1x1_S32x32x2x16384_0_1_2_3 : S32x32x1x1.BroadcastsInDim S32x32x2x16384 (![0, 1, 2, 3] : Fin 4 → Fin S32x32x2x16384.rank)
  bcast_S32x2x1_S1x32x2x1_1_2_3 : S32x2x1.BroadcastsInDim S1x32x2x1 (![1, 2, 3] : Fin 3 → Fin S1x32x2x1.rank)
  bcast_S1x32x2x1_S32x32x2x16384_0_1_2_3 : S1x32x2x1.BroadcastsInDim S32x32x2x16384 (![0, 1, 2, 3] : Fin 4 → Fin S32x32x2x16384.rank)
  bcast_S_S32x32x2x16384 : S_.BroadcastsInDim S32x32x2x16384 (![] : Fin 0 → Fin S32x32x2x16384.rank)
  reducesTo_S32x32x2x16384_S32x2x16384_d0 : S32x32x2x16384.ReducesTo [0] S32x2x16384
  h_S_ : 0 < S_.numel

variable [Facts₀]

class Facts : Prop extends Facts₀ where

variable [Facts]
-- ==== Proof.Spec.lean ====
/-
  Group normalisation followed by swish, differentiated: the three results as scalar formulas on the extended
  reals, and the one fact about sums the accumulation over samples needs.

  For one sample n, one channel ch and one position p, with x the input, mu and rs the group's mean and reciprocal
  standard deviation, g and b the channel's scale and shift, and dy the incoming gradient:
    xhat = (x - mu) * rs                       the normalised input
    o    = xhat * g + b                        the affine output
    s    = 1 / (1 + exp (-(1 * o)))            the logistic gate
    dys  = dy * (s + ((o * s) * (1 - s)) * 1)  the gradient through swish
    dx   = (dys * g) * rs
  and the two parameter gradients are sums over the 32 samples: dgamma = sum of dys * xhat, dbeta = sum of dys.
  Every product and sum is written in the order both programs perform it, so no law of arithmetic is used on these
  terms; the only law used at all is that a sum of 32 terms may be taken as 16 consecutive pairs.
-/
import Idealize.ShloMosaic.PureOps.Ideal
import Idealize.ShloMosaic.Lib.ValueIdx

noncomputable section

namespace Cert.Spec

open Idealize.ShloMosaic Idealize.ShloMosaic.ValueIdx

/-- The float word of 1.0 is the real number one. -/
theorem ofBits_one : Ideal.ofBits .f32 0x3F800000#32 = (1 : EReal) := by
  simp [Ideal.ofBits, Ideal.ieee, -EReal.coe_mul]
  norm_num

/-- The normalised input. -/
def xhat (x mu rs : EReal) : EReal := (x - mu) * rs

/-- The affine output of the normalisation. -/
def aff (x mu rs g b : EReal) : EReal := xhat x mu rs * g + b

/-- The logistic gate of swish, at scale one. -/
def gate (o : EReal) : EReal := Ideal.logistic (Ideal.ofBits .f32 0x3F800000#32 * o)

/-- The derivative of swish at the affine output, in the order the programs compute it. -/
def dact (o : EReal) : EReal :=
  gate o + ((o * gate o) * (Ideal.ofBits .f32 0x3F800000#32 - gate o)) * Ideal.ofBits .f32 0x3F800000#32

/-- The incoming gradient taken through swish. -/
def dys (dy x mu rs g b : EReal) : EReal := dy * dact (aff x mu rs g b)

/-- The gradient with respect to the input. -/
def dxs (dy x mu rs g b : EReal) : EReal := (dys dy x mu rs g b * g) * rs

/-- One sample's contribution to the gradient of the scale. -/
def dgs (dy x mu rs g b : EReal) : EReal := dys dy x mu rs g b * xhat x mu rs

/-- The gate written out with a quotient and an exponential is the logistic function: the word of 1.0 is one. -/
theorem gate_expanded (o : EReal) :
    Ideal.div (Ideal.ofBits .f32 0x3F800000#32)
      (Ideal.ofBits .f32 0x3F800000#32 + Ideal.exp (-(Ideal.ofBits .f32 0x3F800000#32 * o))) = gate o := by
  unfold gate Ideal.logistic
  rw [ofBits_one]

/-- A sum of twice J terms is the sum of its J consecutive pairs. -/
theorem sum_pairs {β : Type*} [AddCommMonoid β] (T : ℕ → β) :
    ∀ J : ℕ, ∑ s ∈ Finset.range J, ∑ k : Fin 2, T (2 * s + k.val) = ∑ n ∈ Finset.range (2 * J), T n
  | 0 => by simp
  | J + 1 => by
    rw [Finset.sum_range_succ, sum_pairs T J, show 2 * (J + 1) = 2 * J + 1 + 1 from by ring,
      Finset.sum_range_succ, Finset.sum_range_succ, Fin.sum_univ_two, add_assoc]
    rfl

/-- Sixteen pairs of consecutive samples make up the sum over all 32 samples. -/
theorem sum_16_pairs {β : Type*} [AddCommMonoid β] (T : ℕ → β) :
    ∑ s ∈ Finset.range 16, ∑ k : Fin 2, T (2 * s + k.val) = ∑ n : Fin 32, T n.val := by
  rw [sum_pairs T 16, Fin.sum_univ_eq_sum_range]

/-! ## The results as functions of the six argument arrays

  The gradient dy is laid out [sample, group, member, position]; the input x is [sample, channel, row, column] with
  channel = 2 * group + member and position = 128 * row + column; the statistics are per [sample, group], the
  parameters per [group, member]. -/

/-- The channel of member cg of group g. -/
def chan (g : Fin 32) (cg : Fin 2) : Fin 64 := ⟨2 * g.val + cg.val, by have := g.isLt; have := cg.isLt; omega⟩

/-- The row of position p in the 128 by 128 image. -/
def prow (p : Fin 16384) : Fin 128 := ⟨p.val / 128, by have := p.isLt; omega⟩

/-- The column of position p in the 128 by 128 image. -/
def pcol (p : Fin 16384) : Fin 128 := ⟨p.val % 128, Nat.mod_lt _ (by decide)⟩

section

variable (DY : (⟨4, ![32, 32, 2, 16384]⟩ : Shape).Idx → EReal) (MU RS : (⟨4, ![32, 32, 1, 1]⟩ : Shape).Idx → EReal)
  (X : (⟨4, ![32, 64, 128, 128]⟩ : Shape).Idx → EReal) (GM BT : (⟨3, ![32, 2, 1]⟩ : Shape).Idx → EReal)

/-- A scalar formula of the six quantities, read at sample n, group g, member cg and position p. -/
def at4 (f : EReal → EReal → EReal → EReal → EReal → EReal → EReal) (n : Fin 32) (g : Fin 32) (cg : Fin 2)
    (p : Fin 16384) : EReal :=
  f (DY (ix4 n g cg p)) (X (ix4 n (chan g cg) (prow p) (pcol p)))
    (MU (ix4 n g (0 : Fin 1) (0 : Fin 1))) (RS (ix4 n g (0 : Fin 1) (0 : Fin 1)))
    (GM (ix3 g cg (0 : Fin 1))) (BT (ix3 g cg (0 : Fin 1)))

/-- The gradient with respect to the input, laid out like dy. -/
def Gdx : (⟨4, ![32, 32, 2, 16384]⟩ : Shape).Idx → EReal :=
  fun i => at4 DY MU RS X GM BT dxs (i 0) (i 1) (i 2) (i 3)

/-- The gradient of the scale: the sum over the samples, from the zero word. -/
def Gdg : (⟨3, ![32, 2, 16384]⟩ : Shape).Idx → EReal :=
  fun i => Ideal.ofBits .f32 0x00000000#32 + ∑ n : Fin 32, at4 DY MU RS X GM BT dgs n (i 0) (i 1) (i 2)

/-- The gradient of the shift: the sum over the samples, from the zero word. -/
def Gdb : (⟨3, ![32, 2, 16384]⟩ : Shape).Idx → EReal :=
  fun i => Ideal.ofBits .f32 0x00000000#32 + ∑ n : Fin 32, at4 DY MU RS X GM BT dys n (i 0) (i 1) (i 2)

theorem Gdx_ix (n : Fin 32) (g : Fin 32) (cg : Fin 2) (p : Fin 16384) :
    Gdx DY MU RS X GM BT (ix4 n g cg p) = at4 DY MU RS X GM BT dxs n g cg p := rfl

theorem Gdg_ix (g : Fin 32) (cg : Fin 2) (p : Fin 16384) :
    Gdg DY MU RS X GM BT (ix3 g cg p)
      = Ideal.ofBits .f32 0x00000000#32 + ∑ n : Fin 32, at4 DY MU RS X GM BT dgs n g cg p := rfl

theorem Gdb_ix (g : Fin 32) (cg : Fin 2) (p : Fin 16384) :
    Gdb DY MU RS X GM BT (ix3 g cg p)
      = Ideal.ofBits .f32 0x00000000#32 + ∑ n : Fin 32, at4 DY MU RS X GM BT dys n g cg p := rfl

end

end Cert.Spec

end
-- ==== Proof.RefValue.lean ====
/-
  The reference computes the three results of Spec: each of its results, read at an index, is the scalar formula
  of the argument arrays at that index. The reference works in the layout [sample, group, member, position]
  throughout; the only re-indexing is its reshape of the input from [sample, channel, row, column].
-/
import proofs.«133069_j22265110462509_2_alg».proof.Proof.Spec
import proofs.«133069_j22265110462509_2_alg».proof.Proof.Gen.ReferenceIdeal.Read

noncomputable section

namespace Cert.RefValue

open Idealize.ShloMosaic Idealize.ShloMosaic.ValueIdx Cert.ReferenceIdeal Cert.ReferenceIdeal.Read Cert.Spec

variable (x0 : (⟨S32x32x2x16384, .f32⟩ : BufTy).Contents (Elt Ideal))
  (x1 x2 : (⟨S32x32x1x1, .f32⟩ : BufTy).Contents (Elt Ideal))
  (x3 : (⟨S32x64x128x128, .f32⟩ : BufTy).Contents (Elt Ideal))
  (x4 x5 : (⟨S32x2x1, .f32⟩ : BufTy).Contents (Elt Ideal))
  (n : Fin 32) (g : Fin 32) (cg : Fin 2) (p : Fin 16384)

/-! ## Where each operand is read -/

/-- The reshape of the input reads channel 2 g + cg, row p / 128, column p % 128. -/
theorem idx_x : idx_main_v0 (ix4 n g cg p) = ix4 n (chan g cg) (prow p) (pcol p) := by
  have hn := n.isLt; have hg := g.isLt; have hc := cg.isLt; have hp := p.isLt
  funext a
  apply Fin.ext
  match a with
  | ⟨0, _⟩ => show (((n.val * 32 + g.val) * 2 + cg.val) * 16384 + p.val) / 1048576 = n.val; omega
  | ⟨1, _⟩ => show (((n.val * 32 + g.val) * 2 + cg.val) * 16384 + p.val) / 16384 % 64 = 2 * g.val + cg.val; omega
  | ⟨2, _⟩ => show (((n.val * 32 + g.val) * 2 + cg.val) * 16384 + p.val) / 128 % 128 = p.val / 128; omega
  | ⟨3, _⟩ => show (((n.val * 32 + g.val) * 2 + cg.val) * 16384 + p.val) % 128 = p.val % 128; omega

/-- The statistics are read at the sample and the group. -/
theorem idx_mu : idx_main_v1 (ix4 n g cg p) = ix4 n g (0 : Fin 1) (0 : Fin 1) := by
  funext a; apply Fin.ext; match a with | ⟨0, _⟩ => rfl | ⟨1, _⟩ => rfl | ⟨2, _⟩ => rfl | ⟨3, _⟩ => rfl
theorem idx_rs : idx_main_v3 (ix4 n g cg p) = ix4 n g (0 : Fin 1) (0 : Fin 1) := by
  funext a; apply Fin.ext; match a with | ⟨0, _⟩ => rfl | ⟨1, _⟩ => rfl | ⟨2, _⟩ => rfl | ⟨3, _⟩ => rfl
theorem idx_rs' : idx_main_v33 (ix4 n g cg p) = ix4 n g (0 : Fin 1) (0 : Fin 1) := by
  funext a; apply Fin.ext; match a with | ⟨0, _⟩ => rfl | ⟨1, _⟩ => rfl | ⟨2, _⟩ => rfl | ⟨3, _⟩ => rfl

/-- The parameters are read at the group and the member. -/
theorem idx_gm : idx_main_v5 (idx_main_v6 (ix4 n g cg p)) = ix3 g cg (0 : Fin 1) := by
  funext a; apply Fin.ext; match a with | ⟨0, _⟩ => rfl | ⟨1, _⟩ => rfl | ⟨2, _⟩ => rfl
theorem idx_bt : idx_main_v8 (idx_main_v9 (ix4 n g cg p)) = ix3 g cg (0 : Fin 1) := by
  funext a; apply Fin.ext; match a with | ⟨0, _⟩ => rfl | ⟨1, _⟩ => rfl | ⟨2, _⟩ => rfl
theorem idx_gm' : idx_main_v30 (idx_main_v31 (ix4 n g cg p)) = ix3 g cg (0 : Fin 1) := by
  funext a; apply Fin.ext; match a with | ⟨0, _⟩ => rfl | ⟨1, _⟩ => rfl | ⟨2, _⟩ => rfl

/-- The sums over the samples read sample k at the result's group, member and position. -/
theorem idx_sum_g (k : Fin 32) : idx_main_v28 (ix3 g cg p) k = ix4 k g cg p := by
  funext a; apply Fin.ext; match a with | ⟨0, _⟩ => rfl | ⟨1, _⟩ => rfl | ⟨2, _⟩ => rfl | ⟨3, _⟩ => rfl
theorem idx_sum_b (k : Fin 32) : idx_main_v29 (ix3 g cg p) k = ix4 k g cg p := by
  funext a; apply Fin.ext; match a with | ⟨0, _⟩ => rfl | ⟨1, _⟩ => rfl | ⟨2, _⟩ => rfl | ⟨3, _⟩ => rfl

/-! ## The stages at an index -/

/-- The normalised input. -/
theorem v4_at : val_main_v4 (F := Ideal) x1 x2 x3 (ix4 n g cg p)
    = xhat (x3 (ix4 n (chan g cg) (prow p) (pcol p))) (x1 (ix4 n g (0 : Fin 1) (0 : Fin 1)))
        (x2 (ix4 n g (0 : Fin 1) (0 : Fin 1))) := by
  rw [val_main_v4_apply, val_main_v2_apply, val_main_v0_apply, val_main_v1_apply, val_main_v3_apply,
    idx_x, idx_mu, idx_rs]
  rfl

/-- The affine output. -/
theorem v10_at : val_main_v10 (F := Ideal) x1 x2 x3 x4 x5 (ix4 n g cg p)
    = aff (x3 (ix4 n (chan g cg) (prow p) (pcol p))) (x1 (ix4 n g (0 : Fin 1) (0 : Fin 1)))
        (x2 (ix4 n g (0 : Fin 1) (0 : Fin 1))) (x4 (ix3 g cg (0 : Fin 1))) (x5 (ix3 g cg (0 : Fin 1))) := by
  rw [val_main_v10_apply, val_main_v7_apply, v4_at, val_main_v6_apply, val_main_v5_apply, idx_gm,
    val_main_v9_apply, val_main_v8_apply, idx_bt]
  rfl

/-- The gate: the reference spells the logistic function with a negation, an exponential, a sum and a quotient. -/
theorem v18_at : val_main_v18 (F := Ideal) x1 x2 x3 x4 x5 (ix4 n g cg p)
    = gate (val_main_v10 (F := Ideal) x1 x2 x3 x4 x5 (ix4 n g cg p)) := by
  rw [val_main_v18_apply, val_main_v17_apply, val_main_cst_1_apply, val_main_v16_apply, val_main_v15_apply,
    val_main_cst_0_apply, val_main_v14_apply, val_main_v13_apply, val_main_v12_apply, val_main_v11_apply,
    val_main_cst_apply]
  exact gate_expanded _

/-- The gradient through swish. -/
theorem v26_at : val_main_v26 (F := Ideal) x0 x1 x2 x3 x4 x5 (ix4 n g cg p) = at4 x0 x1 x2 x3 x4 x5 dys n g cg p := by
  rw [val_main_v26_apply, val_main_v25_apply, val_main_v24_apply, val_main_v23_apply, val_main_cst_3_apply,
    val_main_v22_apply, val_main_v21_apply, val_main_v20_apply, val_main_cst_2_apply, val_main_v19_apply, v18_at,
    v10_at]
  rfl

/-! ## The three results -/

theorem ref_dx : val_main_v34 (F := Ideal) x0 x1 x2 x3 x4 x5 = Gdx x0 x1 x2 x3 x4 x5 := by
  funext i
  obtain ⟨n, g, cg, p, rfl⟩ : ∃ (n : Fin 32) (g : Fin 32) (cg : Fin 2) (p : Fin 16384), i = ix4 n g cg p :=
    ⟨i 0, i 1, i 2, i 3, eq_ix4 i⟩
  rw [Gdx_ix, val_main_v34_apply, val_main_v32_apply, v26_at, val_main_v31_apply, val_main_v30_apply, idx_gm',
    val_main_v33_apply, idx_rs']
  rfl

theorem ref_dgamma : val_main_v28 (F := Ideal) x0 x1 x2 x3 x4 x5 = Gdg x0 x1 x2 x3 x4 x5 := by
  funext i
  obtain ⟨g, cg, p, rfl⟩ : ∃ (g : Fin 32) (cg : Fin 2) (p : Fin 16384), i = ix3 g cg p := ⟨i 0, i 1, i 2, eq_ix3 i⟩
  rw [Gdg_ix, val_main_v28_apply, val_main_cst_4_apply]
  refine congrArg (_ + ·) (Finset.sum_congr rfl fun k _ => ?_)
  rw [idx_sum_g, val_main_v27_apply, v26_at, v4_at]
  rfl

theorem ref_dbeta : val_main_v29 (F := Ideal) x0 x1 x2 x3 x4 x5 = Gdb x0 x1 x2 x3 x4 x5 := by
  funext i
  obtain ⟨g, cg, p, rfl⟩ : ∃ (g : Fin 32) (cg : Fin 2) (p : Fin 16384), i = ix3 g cg p := ⟨i 0, i 1, i 2, eq_ix3 i⟩
  rw [Gdb_ix, val_main_v29_apply, val_main_cst_5_apply]
  refine congrArg (_ + ·) (Finset.sum_congr rfl fun k _ => ?_)
  rw [idx_sum_b, v26_at]

end Cert.RefValue

end
-- ==== Proof.Merged.lean ====
/-
  The same results in the layout the kernel works in: the group and member axes merged into one channel axis of
  64, the image flattened to 16384 positions.

  Channel ch belongs to group ch / 2 as member ch % 2. The grid has 32 steps: step t works on channel tile t / 16
  (channels 32 (t / 16) + r, r below 32) and on the sample pair t % 16 (samples 2 (t % 16) + k, k below 2). The
  sixteen steps of one tile therefore visit every sample once, two at a time, which is the only re-grouping of a
  sum this kernel makes.
-/
import proofs.«133069_j22265110462509_2_alg».proof.Proof.Spec

noncomputable section

namespace Cert.Spec

open Idealize.ShloMosaic Idealize.ShloMosaic.ValueIdx

/-- The group of a channel. -/
def grp (ch : Fin 64) : Fin 32 := ⟨ch.val / 2, by have := ch.isLt; omega⟩

/-- The member a channel is within its group. -/
def mem (ch : Fin 64) : Fin 2 := ⟨ch.val % 2, Nat.mod_lt _ (by decide)⟩

theorem grp_chan (g : Fin 32) (cg : Fin 2) : grp (chan g cg) = g :=
  Fin.ext (by have := g.isLt; have := cg.isLt; show (2 * g.val + cg.val) / 2 = g.val; omega)

theorem mem_chan (g : Fin 32) (cg : Fin 2) : mem (chan g cg) = cg :=
  Fin.ext (by have := g.isLt; have := cg.isLt; show (2 * g.val + cg.val) % 2 = cg.val; omega)

theorem chan_grp_mem (ch : Fin 64) : chan (grp ch) (mem ch) = ch :=
  Fin.ext (by have := ch.isLt; show 2 * (ch.val / 2) + ch.val % 2 = ch.val; omega)

/-- Sample k of the pair step tv works on. -/
def smp (tv : ℕ) (k : Fin 2) : Fin 32 := ⟨2 * (tv % 16) + k.val, by have := k.isLt; omega⟩

/-- Channel r of the tile step tv works on. -/
def chn (tv : ℕ) (r : Fin 32) : Fin 64 := ⟨32 * (tv / 16 % 2) + r.val, by have := r.isLt; omega⟩

section

variable (DY : (⟨4, ![32, 32, 2, 16384]⟩ : Shape).Idx → EReal) (MU RS : (⟨4, ![32, 32, 1, 1]⟩ : Shape).Idx → EReal)
  (X : (⟨4, ![32, 64, 128, 128]⟩ : Shape).Idx → EReal) (GM BT : (⟨3, ![32, 2, 1]⟩ : Shape).Idx → EReal)
  (f : EReal → EReal → EReal → EReal → EReal → EReal → EReal)

/-- A scalar formula of the six quantities, read at sample n, channel ch and position p. -/
def atM (n : Fin 32) (ch : Fin 64) (p : Fin 16384) : EReal := at4 DY MU RS X GM BT f n (grp ch) (mem ch) p

theorem atM_chan (n : Fin 32) (g : Fin 32) (cg : Fin 2) (p : Fin 16384) :
    atM DY MU RS X GM BT f n (chan g cg) p = at4 DY MU RS X GM BT f n g cg p := by
  unfold atM
  rw [grp_chan, mem_chan]

/-- The input gradient in the merged layout. -/
def Hdx : (⟨3, ![32, 64, 16384]⟩ : Shape).Idx → EReal := fun i => atM DY MU RS X GM BT dxs (i 0) (i 1) (i 2)

/-- The gradient of the scale in the merged layout. -/
def Hdg : (⟨2, ![64, 16384]⟩ : Shape).Idx → EReal :=
  fun i => Ideal.ofBits .f32 0x00000000#32 + ∑ n : Fin 32, atM DY MU RS X GM BT dgs n (i 0) (i 1)

/-- The gradient of the shift in the merged layout. -/
def Hdb : (⟨2, ![64, 16384]⟩ : Shape).Idx → EReal :=
  fun i => Ideal.ofBits .f32 0x00000000#32 + ∑ n : Fin 32, atM DY MU RS X GM BT dys n (i 0) (i 1)

theorem Hdx_ix (n : Fin 32) (ch : Fin 64) (p : Fin 16384) :
    Hdx DY MU RS X GM BT (ix3 n ch p) = atM DY MU RS X GM BT dxs n ch p := rfl

theorem Hdg_ix (ch : Fin 64) (p : Fin 16384) :
    Hdg DY MU RS X GM BT (ix2 ch p)
      = Ideal.ofBits .f32 0x00000000#32 + ∑ n : Fin 32, atM DY MU RS X GM BT dgs n ch p := rfl

theorem Hdb_ix (ch : Fin 64) (p : Fin 16384) :
    Hdb DY MU RS X GM BT (ix2 ch p)
      = Ideal.ofBits .f32 0x00000000#32 + ∑ n : Fin 32, atM DY MU RS X GM BT dys n ch p := rfl

/-- The sixteen steps of tile q, two samples each, add up every sample's term once. -/
theorem tile_sum (q : ℕ) (r : Fin 32) (p : Fin 16384) :
    ∑ s ∈ Finset.range 16, ∑ k : Fin 2, atM DY MU RS X GM BT f (smp (16 * q + s) k) (chn (16 * q + s) r) p
      = ∑ n : Fin 32, atM DY MU RS X GM BT f n (chn (16 * q) r) p := by
  have h := sum_16_pairs (fun n : ℕ => atM DY MU RS X GM BT f ⟨n % 32, Nat.mod_lt _ (by decide)⟩ (chn (16 * q) r) p)
  refine Eq.trans (Finset.sum_congr rfl fun s hs => Finset.sum_congr rfl fun k _ => ?_) (h.trans ?_)
  · have hs' : s < 16 := Finset.mem_range.mp hs
    have hk := k.isLt
    have e1 : smp (16 * q + s) k = ⟨(2 * s + k.val) % 32, Nat.mod_lt _ (by decide)⟩ :=
      Fin.ext (by show 2 * ((16 * q + s) % 16) + k.val = (2 * s + k.val) % 32; omega)
    have e2 : chn (16 * q + s) r = chn (16 * q) r :=
      Fin.ext (by show 32 * ((16 * q + s) / 16 % 2) + r.val = 32 * (16 * q / 16 % 2) + r.val; omega)
    rw [e1, e2]
  · refine Finset.sum_congr rfl fun n _ => ?_
    have e : (⟨n.val % 32, Nat.mod_lt _ (by decide)⟩ : Fin 32) = n := Fin.ext (Nat.mod_eq_of_lt n.isLt)
    show atM DY MU RS X GM BT f ⟨n.val % 32, _⟩ (chn (16 * q) r) p = _
    rw [e]

end

end Cert.Spec

end
-- ==== Proof.Blocks.lean ====
/-
  Where the blocks sit in the arrays, and what the arrays the kernel is launched on hold.

  Step t of the grid works on sample pair t % 16 and channel tile t / 16: entry (k, r, p) of a [2, 32, 16384]
  block is entry (2 (t % 16) + k, 32 (t / 16) + r, p) of its [32, 64, 16384] array, and likewise for the
  [2, 32, 1] statistics and the [32, 1] parameters. The arrays themselves are written before the launch as
  re-layouts of the arguments: the gradient and the input with the group and member axes merged (and the image
  flattened), the statistics repeated for the two members of a group, the parameters with their two axes merged.
-/
import proofs.«133069_j22265110462509_2_alg».proof.Proof.Merged
import proofs.«133069_j22265110462509_2_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (c : Dev nD)

/-! ## The block index of each window at each step, decided over the grid -/

theorem idx0 : ∀ t : Fin cfg0.N, win0_0.index t (0 : Fin 3) = t.val % 16 ∧ win0_0.index t (1 : Fin 3) = t.val / 16 ∧ win0_0.index t (2 : Fin 3) = 0 :=
  (by decide +kernel : ∀ t : Fin grid0.N, win0_0.index t (0 : Fin 3) = t.val % 16 ∧ win0_0.index t (1 : Fin 3) = t.val / 16 ∧ win0_0.index t (2 : Fin 3) = 0)
theorem idx1 : ∀ t : Fin cfg0.N, win0_1.index t (0 : Fin 3) = t.val % 16 ∧ win0_1.index t (1 : Fin 3) = t.val / 16 ∧ win0_1.index t (2 : Fin 3) = 0 :=
  (by decide +kernel : ∀ t : Fin grid0.N, win0_1.index t (0 : Fin 3) = t.val % 16 ∧ win0_1.index t (1 : Fin 3) = t.val / 16 ∧ win0_1.index t (2 : Fin 3) = 0)
theorem idx2 : ∀ t : Fin cfg0.N, win0_2.index t (0 : Fin 3) = t.val % 16 ∧ win0_2.index t (1 : Fin 3) = t.val / 16 ∧ win0_2.index t (2 : Fin 3) = 0 :=
  (by decide +kernel : ∀ t : Fin grid0.N, win0_2.index t (0 : Fin 3) = t.val % 16 ∧ win0_2.index t (1 : Fin 3) = t.val / 16 ∧ win0_2.index t (2 : Fin 3) = 0)
theorem idx3 : ∀ t : Fin cfg0.N, win0_3.index t (0 : Fin 3) = t.val % 16 ∧ win0_3.index t (1 : Fin 3) = t.val / 16 ∧ win0_3.index t (2 : Fin 3) = 0 :=
  (by decide +kernel : ∀ t : Fin grid0.N, win0_3.index t (0 : Fin 3) = t.val % 16 ∧ win0_3.index t (1 : Fin 3) = t.val / 16 ∧ win0_3.index t (2 : Fin 3) = 0)
theorem idx4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)
theorem idx5 : ∀ t : Fin cfg0.N, win0_5.index t (0 : Fin 2) = t.val / 16 ∧ win0_5.index t (1 : Fin 2) = 0 :=
  (by decide +kernel : ∀ t : Fin grid0.N, win0_5.index t (0 : Fin 2) = t.val / 16 ∧ win0_5.index t (1 : Fin 2) = 0)
theorem idx6 : ∀ t : Fin cfg0.N, win0_6.index t (0 : Fin 3) = t.val % 16 ∧ win0_6.index t (1 : Fin 3) = t.val / 16 ∧ win0_6.index t (2 : Fin 3) = 0 :=
  (by decide +kernel : ∀ t : Fin grid0.N, win0_6.index t (0 : Fin 3) = t.val % 16 ∧ win0_6.index t (1 : Fin 3) = t.val / 16 ∧ win0_6.index t (2 : Fin 3) = 0)
theorem idx7 : ∀ t : Fin cfg0.N, win0_7.index t (0 : Fin 2) = t.val / 16 ∧ win0_7.index t (1 : Fin 2) = 0 :=
  (by decide +kernel : ∀ t : Fin grid0.N, win0_7.index t (0 : Fin 2) = t.val / 16 ∧ win0_7.index t (1 : Fin 2) = 0)
theorem idx8 : ∀ t : Fin cfg0.N, win0_8.index t (0 : Fin 2) = t.val / 16 ∧ win0_8.index t (1 : Fin 2) = 0 :=
  (by decide +kernel : ∀ t : Fin grid0.N, win0_8.index t (0 : Fin 2) = t.val / 16 ∧ win0_8.index t (1 : Fin 2) = 0)

/-! ## The input blocks read off their arrays -/

/-- The gradient's block at step t. -/
theorem blk0 (t : Fin cfg0.N) (k : Fin 2) (r : Fin 32) (p : Fin 16384) :
    iblk m c 0 t (ix3 k r p) = V m c main_v0 (ix3 (smp t.val k) (chn t.val r) p) := by
  obtain ⟨e0, e1, e2⟩ := idx0 t
  have hN : t.val < 32 := lt_of_lt_of_eq t.isLt N_0
  have hk := k.isLt; have hr := r.isLt; have hp := p.isLt
  unfold iblk
  rw [View.read_apply]
  show V m c main_v0 (((cfg0.win 0).blk t).view.emb (ix3 k r p)) = _
  refine congrArg (V m c main_v0) ?_
  funext a; apply Fin.ext
  match a with
  | ⟨0, _⟩ => show win0_0.index t (0 : Fin 3) * 2 + 1 * k.val = 2 * (t.val % 16) + k.val; omega
  | ⟨1, _⟩ => show win0_0.index t (1 : Fin 3) * 32 + 1 * r.val = 32 * (t.val / 16 % 2) + r.val; omega
  | ⟨2, _⟩ => show win0_0.index t (2 : Fin 3) * 16384 + 1 * p.val = p.val; omega

/-- The input's block at step t. -/
theorem blk1 (t : Fin cfg0.N) (k : Fin 2) (r : Fin 32) (p : Fin 16384) :
    iblk m c 1 t (ix3 k r p) = V m c main_v1 (ix3 (smp t.val k) (chn t.val r) p) := by
  obtain ⟨e0, e1, e2⟩ := idx1 t
  have hN : t.val < 32 := lt_of_lt_of_eq t.isLt N_0
  have hk := k.isLt; have hr := r.isLt; have hp := p.isLt
  unfold iblk
  rw [View.read_apply]
  show V m c main_v1 (((cfg0.win 1).blk t).view.emb (ix3 k r p)) = _
  refine congrArg (V m c main_v1) ?_
  funext a; apply Fin.ext
  match a with
  | ⟨0, _⟩ => show win0_1.index t (0 : Fin 3) * 2 + 1 * k.val = 2 * (t.val % 16) + k.val; omega
  | ⟨1, _⟩ => show win0_1.index t (1 : Fin 3) * 32 + 1 * r.val = 32 * (t.val / 16 % 2) + r.val; omega
  | ⟨2, _⟩ => show win0_1.index t (2 : Fin 3) * 16384 + 1 * p.val = p.val; omega

/-- The means' block at step t. -/
theorem blk2 (t : Fin cfg0.N) (k : Fin 2) (r : Fin 32) (p : Fin 1) :
    iblk m c 2 t (ix3 k r p) = V m c main_v3 (ix3 (smp t.val k) (chn t.val r) p) := by
  obtain ⟨e0, e1, e2⟩ := idx2 t
  have hN : t.val < 32 := lt_of_lt_of_eq t.isLt N_0
  have hk := k.isLt; have hr := r.isLt; have hp := p.isLt
  unfold iblk
  rw [View.read_apply]
  show V m c main_v3 (((cfg0.win 2).blk t).view.emb (ix3 k r p)) = _
  refine congrArg (V m c main_v3) ?_
  funext a; apply Fin.ext
  match a with
  | ⟨0, _⟩ => show win0_2.index t (0 : Fin 3) * 2 + 1 * k.val = 2 * (t.val % 16) + k.val; omega
  | ⟨1, _⟩ => show win0_2.index t (1 : Fin 3) * 32 + 1 * r.val = 32 * (t.val / 16 % 2) + r.val; omega
  | ⟨2, _⟩ => show win0_2.index t (2 : Fin 3) * 1 + 1 * p.val = p.val; omega

/-- The reciprocal deviations' block at step t. -/
theorem blk3 (t : Fin cfg0.N) (k : Fin 2) (r : Fin 32) (p : Fin 1) :
    iblk m c 3 t (ix3 k r p) = V m c main_v5 (ix3 (smp t.val k) (chn t.val r) p) := by
  obtain ⟨e0, e1, e2⟩ := idx3 t
  have hN : t.val < 32 := lt_of_lt_of_eq t.isLt N_0
  have hk := k.isLt; have hr := r.isLt; have hp := p.isLt
  unfold iblk
  rw [View.read_apply]
  show V m c main_v5 (((cfg0.win 3).blk t).view.emb (ix3 k r p)) = _
  refine congrArg (V m c main_v5) ?_
  funext a; apply Fin.ext
  match a with
  | ⟨0, _⟩ => show win0_3.index t (0 : Fin 3) * 2 + 1 * k.val = 2 * (t.val % 16) + k.val; omega
  | ⟨1, _⟩ => show win0_3.index t (1 : Fin 3) * 32 + 1 * r.val = 32 * (t.val / 16 % 2) + r.val; omega
  | ⟨2, _⟩ => show win0_3.index t (2 : Fin 3) * 1 + 1 * p.val = p.val; omega

/-- The scales' block at step t. -/
theorem blk4 (t : Fin cfg0.N) (r : Fin 32) (p : Fin 1) :
    iblk m c 4 t (ix2 r p) = V m c main_v6 (ix2 (chn t.val r) p) := by
  obtain ⟨e0, e1⟩ := idx4 t
  have hN : t.val < 32 := lt_of_lt_of_eq t.isLt N_0
  have hr := r.isLt; have hp := p.isLt
  unfold iblk
  rw [View.read_apply]
  show V m c main_v6 (((cfg0.win 4).blk t).view.emb (ix2 r p)) = _
  refine congrArg (V m c main_v6) ?_
  funext a; apply Fin.ext
  match a with
  | ⟨0, _⟩ => show win0_4.index t (0 : Fin 2) * 32 + 1 * r.val = 32 * (t.val / 16 % 2) + r.val; omega
  | ⟨1, _⟩ => show win0_4.index t (1 : Fin 2) * 1 + 1 * p.val = p.val; omega

/-- The shifts' block at step t. -/
theorem blk5 (t : Fin cfg0.N) (r : Fin 32) (p : Fin 1) :
    iblk m c 5 t (ix2 r p) = V m c main_v7 (ix2 (chn t.val r) p) := by
  obtain ⟨e0, e1⟩ := idx5 t
  have hN : t.val < 32 := lt_of_lt_of_eq t.isLt N_0
  have hr := r.isLt; have hp := p.isLt
  unfold iblk
  rw [View.read_apply]
  show V m c main_v7 (((cfg0.win 5).blk t).view.emb (ix2 r p)) = _
  refine congrArg (V m c main_v7) ?_
  funext a; apply Fin.ext
  match a with
  | ⟨0, _⟩ => show win0_5.index t (0 : Fin 2) * 32 + 1 * r.val = 32 * (t.val / 16 % 2) + r.val; omega
  | ⟨1, _⟩ => show win0_5.index t (1 : Fin 2) * 1 + 1 * p.val = p.val; omega

/-! ## The arrays the kernel is launched on, as re-layouts of the arguments -/

/-- The gradient with group and member merged: channel ch is member ch % 2 of group ch / 2. -/
theorem V_dy (n : Fin 32) (ch : Fin 64) (p : Fin 16384) :
    V m c main_v0 (ix3 n ch p) = m ((c : Thread nD τ).loc main_arg0) (ix4 n (grp ch) (mem ch) p) := by
  have e : (V m c main_v0 : S32x64x16384.Idx → EReal)
      = shapeCast S32x64x16384 (m ((c : Thread nD τ).loc main_arg0)) shapeCasts_S32x32x2x16384_S32x64x16384 := by
    show StableHlo.after hostOps0 (fun b => m (c, b)) (Proc.devRef .tc main_v0) = _
    after_results; rfl
  rw [e]
  exact shapeCast_apply _ _ (ix3 n ch p) (ix4 n (grp ch) (mem ch) p) (by
    have := n.isLt; have := ch.isLt; have := p.isLt
    rw [Shape.rowMajor_val_four, Shape.rowMajor_val_three]
    show ((n.val * 32 + ch.val / 2) * 2 + ch.val % 2) * 16384 + p.val = (n.val * 64 + ch.val) * 16384 + p.val
    omega)

/-- The input with its image flattened: position p is row p / 128, column p % 128. -/
theorem V_x (n : Fin 32) (ch : Fin 64) (p : Fin 16384) :
    V m c main_v1 (ix3 n ch p) = m ((c : Thread nD τ).loc main_arg3) (ix4 n ch (prow p) (pcol p)) := by
  have e : (V m c main_v1 : S32x64x16384.Idx → EReal)
      = shapeCast S32x64x16384 (m ((c : Thread nD τ).loc main_arg3)) shapeCasts_S32x64x128x128_S32x64x16384 := by
    show StableHlo.after hostOps0 (fun b => m (c, b)) (Proc.devRef .tc main_v1) = _
    after_results; rfl
  rw [e]
  exact shapeCast_apply _ _ (ix3 n ch p) (ix4 n ch (prow p) (pcol p)) (by
    have := n.isLt; have := ch.isLt; have := p.isLt
    rw [Shape.rowMajor_val_four, Shape.rowMajor_val_three]
    show ((n.val * 64 + ch.val) * 128 + p.val / 128) * 128 + p.val % 128 = (n.val * 64 + ch.val) * 16384 + p.val
    omega)

/-- A per-group statistic repeated for the group's two members and laid out per channel. -/
theorem stat_relayout (v : S32x32x1x1.Idx → EReal) (n : Fin 32) (ch : Fin 64) (z : Fin 1) :
    shapeCast S32x64x1 (broadcastInDim S32x32x2x1 ![0, 1, 2, 3] bcast_S32x32x1x1_S32x32x2x1_0_1_2_3 v)
        shapeCasts_S32x32x2x1_S32x64x1 (ix3 n ch z)
      = v (ix4 n (grp ch) (0 : Fin 1) (0 : Fin 1)) := by
  have hz : z.val = 0 := by omega
  refine (shapeCast_apply _ _ (ix3 n ch z) (ix4 n (grp ch) (mem ch) (0 : Fin 1)) (by
    have := n.isLt; have := ch.isLt
    rw [Shape.rowMajor_val_four, Shape.rowMajor_val_three]
    show ((n.val * 32 + ch.val / 2) * 2 + ch.val % 2) * 1 + 0 = (n.val * 64 + ch.val) * 1 + z.val
    omega)).trans ?_
  exact broadcastInDim_apply _ bcast_S32x32x1x1_S32x32x2x1_0_1_2_3 v _ (ix4 n (grp ch) (0 : Fin 1) (0 : Fin 1))
    (fun a => match a with
      | ⟨0, _⟩ => by show n.val = if (32 : Nat) = 1 then 0 else n.val; rw [if_neg (by decide)]
      | ⟨1, _⟩ => by show ch.val / 2 = if (32 : Nat) = 1 then 0 else ch.val / 2; rw [if_neg (by decide)]
      | ⟨2, _⟩ => by show 0 = if (1 : Nat) = 1 then 0 else ch.val % 2; rw [if_pos rfl]
      | ⟨3, _⟩ => by show 0 = if (1 : Nat) = 1 then 0 else 0; rw [if_pos rfl])

/-- The means per channel. -/
theorem V_mu (n : Fin 32) (ch : Fin 64) (z : Fin 1) :
    V m c main_v3 (ix3 n ch z) = m ((c : Thread nD τ).loc main_arg1) (ix4 n (grp ch) (0 : Fin 1) (0 : Fin 1)) := by
  have e : (V m c main_v3 : S32x64x1.Idx → EReal)
      = shapeCast S32x64x1 (broadcastInDim S32x32x2x1 ![0, 1, 2, 3] bcast_S32x32x1x1_S32x32x2x1_0_1_2_3
          (m ((c : Thread nD τ).loc main_arg1))) shapeCasts_S32x32x2x1_S32x64x1 := by
    show StableHlo.after hostOps0 (fun b => m (c, b)) (Proc.devRef .tc main_v3) = _
    after_results; rfl
  rw [e]
  exact stat_relayout _ n ch z

/-- The reciprocal deviations per channel. -/
theorem V_rs (n : Fin 32) (ch : Fin 64) (z : Fin 1) :
    V m c main_v5 (ix3 n ch z) = m ((c : Thread nD τ).loc main_arg2) (ix4 n (grp ch) (0 : Fin 1) (0 : Fin 1)) := by
  have e : (V m c main_v5 : S32x64x1.Idx → EReal)
      = shapeCast S32x64x1 (broadcastInDim S32x32x2x1 ![0, 1, 2, 3] bcast_S32x32x1x1_S32x32x2x1_0_1_2_3
          (m ((c : Thread nD τ).loc main_arg2))) shapeCasts_S32x32x2x1_S32x64x1 := by
    show StableHlo.after hostOps0 (fun b => m (c, b)) (Proc.devRef .tc main_v5) = _
    after_results; rfl
  rw [e]
  exact stat_relayout _ n ch z

/-- A per-group, per-member parameter laid out per channel. -/
theorem par_relayout (v : S32x2x1.Idx → EReal) (ch : Fin 64) (z : Fin 1) :
    shapeCast S64x1 v shapeCasts_S32x2x1_S64x1 (ix2 ch z) = v (ix3 (grp ch) (mem ch) (0 : Fin 1)) :=
  shapeCast_apply _ _ (ix2 ch z) (ix3 (grp ch) (mem ch) (0 : Fin 1)) (by
    have := ch.isLt
    have hz : z.val = 0 := by omega
    rw [Shape.rowMajor_val_three, Shape.rowMajor_val_two]
    show (ch.val / 2 * 2 + ch.val % 2) * 1 + 0 = ch.val * 1 + z.val
    omega)

/-- The scales per channel. -/
theorem V_gm (ch : Fin 64) (z : Fin 1) :
    V m c main_v6 (ix2 ch z) = m ((c : Thread nD τ).loc main_arg4) (ix3 (grp ch) (mem ch) (0 : Fin 1)) := by
  have e : (V m c main_v6 : S64x1.Idx → EReal)
      = shapeCast S64x1 (m ((c : Thread nD τ).loc main_arg4)) shapeCasts_S32x2x1_S64x1 := by
    show StableHlo.after hostOps0 (fun b => m (c, b)) (Proc.devRef .tc main_v6) = _
    after_results; rfl
  rw [e]
  exact par_relayout _ ch z

/-- The shifts per channel. -/
theorem V_bt (ch : Fin 64) (z : Fin 1) :
    V m c main_v7 (ix2 ch z) = m ((c : Thread nD τ).loc main_arg5) (ix3 (grp ch) (mem ch) (0 : Fin 1)) := by
  have e : (V m c main_v7 : S64x1.Idx → EReal)
      = shapeCast S64x1 (m ((c : Thread nD τ).loc main_arg5)) shapeCasts_S32x2x1_S64x1 := by
    show StableHlo.after hostOps0 (fun b => m (c, b)) (Proc.devRef .tc main_v7) = _
    after_results; rfl
  rw [e]
  exact par_relayout _ ch z

end Cert.KernelIdeal.Blocks

end
-- ==== Proof.Pieces.lean ====
/-
  What one run of the body leaves in the three output blocks, as values of the six input blocks it loads.

  The body has two cases. At the first step of a channel tile's sixteen (case A) it stores zeros into the two
  accumulator blocks, reads them back and adds this step's partial sums; at every later step (case B) it adds the
  partial sums to what the previous step left. In both cases the block of the input gradient is this step's own
  value, with no carry. Each block ends holding the last value stored over the whole of it, and every load reads a
  whole buffer, so each result is the stored expression of the loaded blocks themselves.
-/
import proofs.«133069_j22265110462509_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## Case B: the accumulators carry over -/

theorem out_B_6 (c : Dev nD) (i : grid0.Coords) (a2 : Memref sig .tc .vmem S2x32x16384 .f32) (h2 : a2.IsWhole) (a3 : Memref sig .tc .vmem S2x32x16384 .f32) (h3 : a3.IsWhole) (a4 : Memref sig .tc .vmem S2x32x1 .f32) (h4 : a4.IsWhole) (a5 : Memref sig .tc .vmem S2x32x1 .f32) (h5 : a5.IsWhole) (a6 : Memref sig .tc .vmem S32x1 .f32) (h6 : a6.IsWhole) (a7 : Memref sig .tc .vmem S32x1 .f32) (h7 : a7.IsWhole) (a8 : Memref sig .tc .vmem S2x32x16384 .f32) (h8 : a8.IsWhole) (a9 : Memref sig .tc .vmem S32x16384 .f32) (h9 : a9.IsWhole) (a10 : Memref sig .tc .vmem S32x16384 .f32) (h10 : a10.IsWhole) (hc : ¬cond0_0 i) (x0 x1 : Vec F S2x32x16384 .f32) (x2 x3 : Vec F S2x32x1 .f32) (x4 x5 : Vec F S32x1 .f32) (xo7 xo8 : Vec F S32x16384 .f32) :
    out0_B_6 c i a2 h2 a3 h3 a4 h4 a5 h5 a6 h6 a7 h7 a8 h8 a9 h9 a10 h10 hc x0 x1 x2 x3 x4 x5 xo7 xo8 = k0_pay3 (k0_pay6 x3) (k0_pay7 x4) (k0_pay9 x0 x1 x2 x3 x4 x5) := by
  unfold out0_B_6
  rw [View.read_writes_eq_canon _ _ _ (cover0_B_6 c i a2 h2 a3 h3 a4 h4 a5 h5 a6 h6 a7 h7 a8 h8 a9 h9 a10 h10 hc x0 x1 x2 x3 x4 x5 xo7 xo8)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, View.ld_unit_zero (S := S2x32x16384) hz3, View.ld_unit_zero (S := S2x32x1) hz3, View.ld_unit_zero (S := S32x1) hz2, View.ld_unit_zero (S := S32x16384) hz2]

theorem out_B_7 (c : Dev nD) (i : grid0.Coords) (a2 : Memref sig .tc .vmem S2x32x16384 .f32) (h2 : a2.IsWhole) (a3 : Memref sig .tc .vmem S2x32x16384 .f32) (h3 : a3.IsWhole) (a4 : Memref sig .tc .vmem S2x32x1 .f32) (h4 : a4.IsWhole) (a5 : Memref sig .tc .vmem S2x32x1 .f32) (h5 : a5.IsWhole) (a6 : Memref sig .tc .vmem S32x1 .f32) (h6 : a6.IsWhole) (a7 : Memref sig .tc .vmem S32x1 .f32) (h7 : a7.IsWhole) (a8 : Memref sig .tc .vmem S2x32x16384 .f32) (h8 : a8.IsWhole) (a9 : Memref sig .tc .vmem S32x16384 .f32) (h9 : a9.IsWhole) (a10 : Memref sig .tc .vmem S32x16384 .f32) (h10 : a10.IsWhole) (hc : ¬cond0_0 i) (x0 x1 : Vec F S2x32x16384 .f32) (x2 x3 : Vec F S2x32x1 .f32) (x4 x5 : Vec F S32x1 .f32) (xo7 xo8 : Vec F S32x16384 .f32) :
    out0_B_7 c i a2 h2 a3 h3 a4 h4 a5 h5 a6 h6 a7 h7 a8 h8 a9 h9 a10 h10 hc x0 x1 x2 x3 x4 x5 xo7 xo8 = k0_pay1 (k0_pay8 x1 x2 x3) (k0_pay9 x0 x1 x2 x3 x4 x5) xo7 := by
  unfold out0_B_7
  rw [View.read_writes_eq_canon _ _ _ (cover0_B_7 c i a2 h2 a3 h3 a4 h4 a5 h5 a6 h6 a7 h7 a8 h8 a9 h9 a10 h10 hc x0 x1 x2 x3 x4 x5 xo7 xo8)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, View.ld_unit_zero (S := S2x32x16384) hz3, View.ld_unit_zero (S := S2x32x1) hz3, View.ld_unit_zero (S := S32x1) hz2, View.ld_unit_zero (S := S32x16384) hz2]

theorem out_B_8 (c : Dev nD) (i : grid0.Coords) (a2 : Memref sig .tc .vmem S2x32x16384 .f32) (h2 : a2.IsWhole) (a3 : Memref sig .tc .vmem S2x32x16384 .f32) (h3 : a3.IsWhole) (a4 : Memref sig .tc .vmem S2x32x1 .f32) (h4 : a4.IsWhole) (a5 : Memref sig .tc .vmem S2x32x1 .f32) (h5 : a5.IsWhole) (a6 : Memref sig .tc .vmem S32x1 .f32) (h6 : a6.IsWhole) (a7 : Memref sig .tc .vmem S32x1 .f32) (h7 : a7.IsWhole) (a8 : Memref sig .tc .vmem S2x32x16384 .f32) (h8 : a8.IsWhole) (a9 : Memref sig .tc .vmem S32x16384 .f32) (h9 : a9.IsWhole) (a10 : Memref sig .tc .vmem S32x16384 .f32) (h10 : a10.IsWhole) (hc : ¬cond0_0 i) (x0 x1 : Vec F S2x32x16384 .f32) (x2 x3 : Vec F S2x32x1 .f32) (x4 x5 : Vec F S32x1 .f32) (xo7 xo8 : Vec F S32x16384 .f32) :
    out0_B_8 c i a2 h2 a3 h3 a4 h4 a5 h5 a6 h6 a7 h7 a8 h8 a9 h9 a10 h10 hc x0 x1 x2 x3 x4 x5 xo7 xo8 = k0_pay2 (k0_pay9 x0 x1 x2 x3 x4 x5) xo8 := by
  unfold out0_B_8
  rw [View.read_writes_eq_canon _ _ _ (cover0_B_8 c i a2 h2 a3 h3 a4 h4 a5 h5 a6 h6 a7 h7 a8 h8 a9 h9 a10 h10 hc x0 x1 x2 x3 x4 x5 xo7 xo8)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, View.ld_unit_zero (S := S2x32x16384) hz3, View.ld_unit_zero (S := S2x32x1) hz3, View.ld_unit_zero (S := S32x1) hz2, View.ld_unit_zero (S := S32x16384) hz2]

/-! ## Case A: the accumulators start from the zeros just stored -/

theorem out_A_6 (c : Dev nD) (i : grid0.Coords) (a2 : Memref sig .tc .vmem S2x32x16384 .f32) (h2 : a2.IsWhole) (a3 : Memref sig .tc .vmem S2x32x16384 .f32) (h3 : a3.IsWhole) (a4 : Memref sig .tc .vmem S2x32x1 .f32) (h4 : a4.IsWhole) (a5 : Memref sig .tc .vmem S2x32x1 .f32) (h5 : a5.IsWhole) (a6 : Memref sig .tc .vmem S32x1 .f32) (h6 : a6.IsWhole) (a7 : Memref sig .tc .vmem S32x1 .f32) (h7 : a7.IsWhole) (a8 : Memref sig .tc .vmem S2x32x16384 .f32) (h8 : a8.IsWhole) (a9 : Memref sig .tc .vmem S32x16384 .f32) (h9 : a9.IsWhole) (a10 : Memref sig .tc .vmem S32x16384 .f32) (h10 : a10.IsWhole) (hc : cond0_0 i) (x0 x1 : Vec F S2x32x16384 .f32) (x2 x3 : Vec F S2x32x1 .f32) (x4 x5 : Vec F S32x1 .f32) :
    out0_A_6 c i a2 h2 a3 h3 a4 h4 a5 h5 a6 h6 a7 h7 a8 h8 a9 h9 a10 h10 hc x0 x1 x2 x3 x4 x5 = k0_pay3 (k0_pay6 x3) (k0_pay7 x4) (k0_pay9 x0 x1 x2 x3 x4 x5) := by
  unfold out0_A_6
  rw [View.read_writes_eq_canon _ _ _ (cover0_A_6 c i a2 h2 a3 h3 a4 h4 a5 h5 a6 h6 a7 h7 a8 h8 a9 h9 a10 h10 hc x0 x1 x2 x3 x4 x5)]
  unfold kernelRun0_A
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, View.ld_unit_zero (S := S2x32x16384) hz3, View.ld_unit_zero (S := S2x32x1) hz3, View.ld_unit_zero (S := S32x1) hz2, View.ld_unit_zero (S := S32x16384) hz2]

theorem out_A_7 (c : Dev nD) (i : grid0.Coords) (a2 : Memref sig .tc .vmem S2x32x16384 .f32) (h2 : a2.IsWhole) (a3 : Memref sig .tc .vmem S2x32x16384 .f32) (h3 : a3.IsWhole) (a4 : Memref sig .tc .vmem S2x32x1 .f32) (h4 : a4.IsWhole) (a5 : Memref sig .tc .vmem S2x32x1 .f32) (h5 : a5.IsWhole) (a6 : Memref sig .tc .vmem S32x1 .f32) (h6 : a6.IsWhole) (a7 : Memref sig .tc .vmem S32x1 .f32) (h7 : a7.IsWhole) (a8 : Memref sig .tc .vmem S2x32x16384 .f32) (h8 : a8.IsWhole) (a9 : Memref sig .tc .vmem S32x16384 .f32) (h9 : a9.IsWhole) (a10 : Memref sig .tc .vmem S32x16384 .f32) (h10 : a10.IsWhole) (hc : cond0_0 i) (x0 x1 : Vec F S2x32x16384 .f32) (x2 x3 : Vec F S2x32x1 .f32) (x4 x5 : Vec F S32x1 .f32) :
    out0_A_7 c i a2 h2 a3 h3 a4 h4 a5 h5 a6 h6 a7 h7 a8 h8 a9 h9 a10 h10 hc x0 x1 x2 x3 x4 x5 = k0_pay1 (k0_pay8 x1 x2 x3) (k0_pay9 x0 x1 x2 x3 x4 x5) (k0_pay4 (F := F)) := by
  unfold out0_A_7
  rw [View.read_writes_eq_canon _ _ _ (cover0_A_7 c i a2 h2 a3 h3 a4 h4 a5 h5 a6 h6 a7 h7 a8 h8 a9 h9 a10 h10 hc x0 x1 x2 x3 x4 x5)]
  unfold kernelRun0_A
  dsimp only
  sl_unfold_words
  rw [View.canon_cons_unit_zero (S := S32x16384) hz2, View.readCov_unit_zero (S := S32x16384) _ hz2]
  simp only [View.readAt_eq_ld, h2.read_unread, h3.read_unread, h4.read_unread, h5.read_unread, h6.read_unread, h7.read_unread, h8.read_unread, h9.read_unread, h10.read_unread, View.ld_unit_zero (S := S2x32x16384) hz3, View.ld_unit_zero (S := S2x32x1) hz3, View.ld_unit_zero (S := S32x1) hz2, View.ld_unit_zero (S := S32x16384) hz2]

theorem out_A_8 (c : Dev nD) (i : grid0.Coords) (a2 : Memref sig .tc .vmem S2x32x16384 .f32) (h2 : a2.IsWhole) (a3 : Memref sig .tc .vmem S2x32x16384 .f32) (h3 : a3.IsWhole) (a4 : Memref sig .tc .vmem S2x32x1 .f32) (h4 : a4.IsWhole) (a5 : Memref sig .tc .vmem S2x32x1 .f32) (h5 : a5.IsWhole) (a6 : Memref sig .tc .vmem S32x1 .f32) (h6 : a6.IsWhole) (a7 : Memref sig .tc .vmem S32x1 .f32) (h7 : a7.IsWhole) (a8 : Memref sig .tc .vmem S2x32x16384 .f32) (h8 : a8.IsWhole) (a9 : Memref sig .tc .vmem S32x16384 .f32) (h9 : a9.IsWhole) (a10 : Memref sig .tc .vmem S32x16384 .f32) (h10 : a10.IsWhole) (hc : cond0_0 i) (x0 x1 : Vec F S2x32x16384 .f32) (x2 x3 : Vec F S2x32x1 .f32) (x4 x5 : Vec F S32x1 .f32) :
    out0_A_8 c i a2 h2 a3 h3 a4 h4 a5 h5 a6 h6 a7 h7 a8 h8 a9 h9 a10 h10 hc x0 x1 x2 x3 x4 x5 = k0_pay2 (k0_pay9 x0 x1 x2 x3 x4 x5) (k0_pay5 (F := F)) := by
  unfold out0_A_8
  rw [View.read_writes_eq_canon _ _ _ (cover0_A_8 c i a2 h2 a3 h3 a4 h4 a5 h5 a6 h6 a7 h7 a8 h8 a9 h9 a10 h10 hc x0 x1 x2 x3 x4 x5)]
  unfold kernelRun0_A
  dsimp only
  sl_unfold_words
  rw [View.canon_cons_unit_zero (S := S32x16384) hz2, View.readCov_unit_zero (S := S32x16384) _ hz2]
  simp only [View.readAt_eq_ld, h2.read_unread, h3.read_unread, h4.read_unread, h5.read_unread, h6.read_unread, h7.read_unread, h8.read_unread, h9.read_unread, h10.read_unread, View.ld_unit_zero (S := S2x32x16384) hz3, View.ld_unit_zero (S := S2x32x1) hz3, View.ld_unit_zero (S := S32x1) hz2, View.ld_unit_zero (S := S32x16384) hz2]

end Cert.KernelIdeal.Pieces

end
-- ==== Proof.Payload.lean ====
/-
  The body's arithmetic read at one entry, on the extended reals.

  A block holds two samples k of one channel tile's 32 channels r at all 16384 positions p. The statistics come
  as [2, 32, 1] columns and the parameters as [32, 1] columns, broadcast along the positions (and, for the
  parameters, along the two samples). Read at (k, r, p), the gradient through swish, the normalised input and the
  input gradient are the scalar formulas of Spec at the six loaded values, and each accumulator adds the two
  samples' terms to what it held.
-/
import proofs.«133069_j22265110462509_2_alg».proof.Proof.Spec
import proofs.«133069_j22265110462509_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.Spec

variable (x0 x1 : FVec Ideal S2x32x16384 .f32) (x2 x3 : FVec Ideal S2x32x1 .f32) (x4 x5 : FVec Ideal S32x1 .f32)
  (k : Fin 2) (r : Fin 32) (p : Fin 16384)

/-! ## The broadcasts along the positions -/

/-- A per-sample, per-channel column broadcast along the positions reads its own (k, r) entry. -/
theorem bc_stat (v : FVec Ideal S2x32x1 .f32) (h : S2x32x1.Broadcasts S2x32x16384) :
    broadcastTo S2x32x16384 v h (ix3 k r p) = v (ix3 k r (0 : Fin 1)) :=
  broadcastTo_apply v h (ix3 k r p) (ix3 k r (0 : Fin 1)) (fun a => match a with
    | ⟨0, _⟩ => by show k.val = if (2 : Nat) = 1 then 0 else k.val; rw [if_neg (by decide)]
    | ⟨1, _⟩ => by show r.val = if (32 : Nat) = 1 then 0 else r.val; rw [if_neg (by decide)]
    | ⟨2, _⟩ => by show 0 = if (1 : Nat) = 1 then 0 else p.val; rw [if_pos rfl])

/-- A per-channel column broadcast along the samples and the positions reads its own r entry. -/
theorem bc_par (v : FVec Ideal S1x32x1 .f32) (h : S1x32x1.Broadcasts S2x32x16384) :
    broadcastTo S2x32x16384 v h (ix3 k r p) = v (ix3 (0 : Fin 1) r (0 : Fin 1)) :=
  broadcastTo_apply v h (ix3 k r p) (ix3 (0 : Fin 1) r (0 : Fin 1)) (fun a => match a with
    | ⟨0, _⟩ => by show 0 = if (1 : Nat) = 1 then 0 else k.val; rw [if_pos rfl]
    | ⟨1, _⟩ => by show r.val = if (32 : Nat) = 1 then 0 else r.val; rw [if_neg (by decide)]
    | ⟨2, _⟩ => by show 0 = if (1 : Nat) = 1 then 0 else p.val; rw [if_pos rfl])

/-- The parameter column with a leading unit axis added reads the column. -/
theorem par_col (v : FVec Ideal S32x1 .f32) : k0_pay7 (F := Ideal) v (ix3 (0 : Fin 1) r (0 : Fin 1)) = v (ix2 r (0 : Fin 1)) := by
  unfold k0_pay7
  rw [shapeCast_self]
  exact shapeCast_ab_1ab_apply v _ (0 : Fin 1) r (0 : Fin 1)

/-! ## The pointwise values -/

/-- The normalised input at (k, r, p). -/
theorem xn_at : k0_pay8 (F := Ideal) x1 x2 x3 (ix3 k r p)
    = xhat (x1 (ix3 k r p)) (x2 (ix3 k r (0 : Fin 1))) (x3 (ix3 k r (0 : Fin 1))) := by
  unfold k0_pay8 k0_pay6
  simp only [shapeCast_self]
  show (x1 (ix3 k r p) - broadcastTo S2x32x16384 x2 _ (ix3 k r p)) * broadcastTo S2x32x16384 x3 _ (ix3 k r p) = _
  rw [bc_stat, bc_stat]
  rfl

/-- The gradient through swish at (k, r, p). -/
theorem dys_at : k0_pay9 (F := Ideal) x0 x1 x2 x3 x4 x5 (ix3 k r p)
    = dys (x0 (ix3 k r p)) (x1 (ix3 k r p)) (x2 (ix3 k r (0 : Fin 1))) (x3 (ix3 k r (0 : Fin 1)))
        (x4 (ix2 r (0 : Fin 1))) (x5 (ix2 r (0 : Fin 1))) := by
  have hx := xn_at x1 x2 x3 k r p
  have hg : broadcastTo S2x32x16384 (k0_pay7 (F := Ideal) x4) broadcasts_S1x32x1_S2x32x16384 (ix3 k r p) = x4 (ix2 r (0 : Fin 1)) :=
    (bc_par k r p _ _).trans (par_col r x4)
  have hb : broadcastTo S2x32x16384 (k0_pay7 (F := Ideal) x5) broadcasts_S1x32x1_S2x32x16384 (ix3 k r p) = x5 (ix2 r (0 : Fin 1)) :=
    (bc_par k r p _ _).trans (par_col r x5)
  unfold k0_pay9
  simp only [shapeCast_self]
  unfold k0_pay7 at hb
  simp only [shapeCast_self] at hb
  simp only [mulf, addf, subf, logistic, broadcast, hx, hg, hb]
  rfl

/-- The input gradient at (k, r, p). -/
theorem dx_at : k0_pay3 (F := Ideal) (k0_pay6 x3) (k0_pay7 x4) (k0_pay9 x0 x1 x2 x3 x4 x5) (ix3 k r p)
    = dxs (x0 (ix3 k r p)) (x1 (ix3 k r p)) (x2 (ix3 k r (0 : Fin 1))) (x3 (ix3 k r (0 : Fin 1)))
        (x4 (ix2 r (0 : Fin 1))) (x5 (ix2 r (0 : Fin 1))) := by
  have hd := dys_at x0 x1 x2 x3 x4 x5 k r p
  have hg : broadcastTo S2x32x16384 (k0_pay7 (F := Ideal) x4) broadcasts_S1x32x1_S2x32x16384 (ix3 k r p) = x4 (ix2 r (0 : Fin 1)) :=
    (bc_par k r p _ _).trans (par_col r x4)
  have hr : broadcastTo S2x32x16384 (k0_pay6 (F := Ideal) x3) broadcasts_S2x32x1_S2x32x16384 (ix3 k r p) = x3 (ix3 k r (0 : Fin 1)) := by
    unfold k0_pay6; rw [shapeCast_self]; exact bc_stat k r p _ _
  unfold k0_pay3
  simp only [mulf, hd, hg, hr]
  rfl

/-! ## The accumulators -/

/-- The sum over the two samples of a block, at channel r and position p. -/
theorem sum2_at (v : FVec Ideal S2x32x16384 .f32) (h : S2x32x16384.Reduces [0] S32x16384)
    (hφ : FKind.Formats .f32) (hacc : (0x00000000#32 : BitVec 32) = 0x00000000#32) :
    multiReduction .add [0] S32x16384 v 0x00000000#32 h hφ hacc (ix2 r p) = ∑ k : Fin 2, v (ix3 k r p) := by
  refine (Ideal.multiReduction_add_single v 0x00000000#32 h hφ hacc (ix2 r p)).trans ?_
  refine Finset.sum_congr rfl fun k _ => congrArg v ?_
  funext a
  apply Fin.ext
  match a with
  | ⟨0, _⟩ => rfl
  | ⟨1, _⟩ => rfl
  | ⟨2, _⟩ => rfl

/-- The scale's accumulator: what it held plus the two samples' products. -/
theorem acc_g_at (xn dy : FVec Ideal S2x32x16384 .f32) (acc : Vec Ideal S32x16384 .f32) :
    k0_pay1 (F := Ideal) xn dy acc (ix2 r p) = acc (ix2 r p) + ∑ k : Fin 2, dy (ix3 k r p) * xn (ix3 k r p) := by
  unfold k0_pay1
  simp only [shapeCast_self]
  exact congrArg (acc (ix2 r p) + ·) (sum2_at r p (mulf dy xn) _ _ _)

/-- The shift's accumulator: what it held plus the two samples' terms. -/
theorem acc_b_at (dy : FVec Ideal S2x32x16384 .f32) (acc : Vec Ideal S32x16384 .f32) :
    k0_pay2 (F := Ideal) dy acc (ix2 r p) = acc (ix2 r p) + ∑ k : Fin 2, dy (ix3 k r p) := by
  unfold k0_pay2
  simp only [shapeCast_self]
  exact congrArg (acc (ix2 r p) + ·) (sum2_at r p dy _ _ _)

/-- The accumulators start from the zero word. -/
theorem zero_g_at : k0_pay4 (F := Ideal) (ix2 r p) = Ideal.ofBits .f32 0x00000000#32 := rfl
theorem zero_b_at : k0_pay5 (F := Ideal) (ix2 r p) = Ideal.ofBits .f32 0x00000000#32 := rfl

end Cert.KernelIdeal.Payload

end
-- ==== Proof.Accum.lean ====
/-
  What the three output blocks hold after each step of the grid.

  The block of the input gradient is, at every step, that step's own value. The two parameter-gradient blocks are
  reset at the first step of a channel tile (t % 16 = 0) and added to at each of the fifteen steps that follow, so
  after the tile's last step (t % 16 = 15), the only one at which they are written back, they hold the zero word
  plus the sum over all 32 samples of the per-sample terms at the tile's channels: the fold over the sixteen steps
  is opened once (the library's fold over a run of consecutive steps), and sixteen pairs of samples are the 32
  samples.
-/
import proofs.«133069_j22265110462509_2_alg».proof.Proof.Blocks
import proofs.«133069_j22265110462509_2_alg».proof.Proof.Pieces
import proofs.«133069_j22265110462509_2_alg».proof.Proof.Payload

set_option maxRecDepth 65536

noncomputable section

namespace Cert.KernelIdeal.Accum

open Idealize.ShloMosaic Idealize.ShloMosaic.TcCoe Idealize.ShloMosaic.ValueIdx Idealize.SL.Sem
open Cert.KernelIdeal Cert.KernelIdeal.Gen Cert.Spec
open Cert.KernelIdeal.Pieces Cert.KernelIdeal.Payload Cert.KernelIdeal.Blocks

variable (m : (ℓ : Loc nD τ sig) → Buf (Elt Ideal) ℓ) (c : Dev nD)

/-- A scalar formula of the six quantities read off the launch memory, at sample n, channel ch, position p. -/
def atK (f : EReal → EReal → EReal → EReal → EReal → EReal → EReal) (n : Fin 32) (ch : Fin 64) (p : Fin 16384) : EReal :=
  atM (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) f n ch p

/-! ## One step's values at an entry of its blocks -/

/-- The six loaded values at entry (k, r, p) of step t's blocks are the arguments' at the step's sample and channel. -/
theorem loads_at (t : Fin cfg0.N) (k : Fin 2) (r : Fin 32) (p : Fin 16384)
    (f : EReal → EReal → EReal → EReal → EReal → EReal → EReal) :
    f (iblk m c 0 t (ix3 k r p)) (iblk m c 1 t (ix3 k r p)) (iblk m c 2 t (ix3 k r (0 : Fin 1)))
        (iblk m c 3 t (ix3 k r (0 : Fin 1))) (iblk m c 4 t (ix2 r (0 : Fin 1))) (iblk m c 5 t (ix2 r (0 : Fin 1)))
      = atK m c f (smp t.val k) (chn t.val r) p := by
  rw [blk0, blk1, blk2, blk3, blk4, blk5, V_dy, V_x, V_mu, V_rs, V_gm, V_bt]
  unfold atK atM at4
  rw [chan_grp_mem]

/-- The gradient through swish at an entry of step t's blocks. -/
theorem dys_blk (t : Fin cfg0.N) (k : Fin 2) (r : Fin 32) (p : Fin 16384) :
    (k0_pay9 (F := Ideal) (iblk m c 0 t) (iblk m c 1 t) (iblk m c 2 t) (iblk m c 3 t) (iblk m c 4 t) (iblk m c 5 t)) (ix3 k r p) = atK m c dys (smp t.val k) (chn t.val r) p :=
  (dys_at (iblk m c 0 t) (iblk m c 1 t) (iblk m c 2 t) (iblk m c 3 t) (iblk m c 4 t) (iblk m c 5 t) k r p).trans
    (loads_at m c t k r p dys)

/-- The product with the normalised input, the scale gradient's term, at an entry of step t's blocks. -/
theorem dgs_blk (t : Fin cfg0.N) (k : Fin 2) (r : Fin 32) (p : Fin 16384) :
    (k0_pay9 (F := Ideal) (iblk m c 0 t) (iblk m c 1 t) (iblk m c 2 t) (iblk m c 3 t) (iblk m c 4 t) (iblk m c 5 t)) (ix3 k r p) * (k0_pay8 (F := Ideal) (iblk m c 1 t) (iblk m c 2 t) (iblk m c 3 t)) (ix3 k r p) = atK m c dgs (smp t.val k) (chn t.val r) p := by
  rw [dys_at, xn_at]
  exact loads_at m c t k r p dgs

/-- The input gradient at an entry of step t's blocks. -/
theorem dxs_blk (t : Fin cfg0.N) (k : Fin 2) (r : Fin 32) (p : Fin 16384) :
    k0_pay3 (F := Ideal) (k0_pay6 (iblk m c 3 t)) (k0_pay7 (iblk m c 4 t)) (k0_pay9 (F := Ideal) (iblk m c 0 t) (iblk m c 1 t) (iblk m c 2 t) (iblk m c 3 t) (iblk m c 4 t) (iblk m c 5 t)) (ix3 k r p)
      = atK m c dxs (smp t.val k) (chn t.val r) p :=
  (dx_at (iblk m c 0 t) (iblk m c 1 t) (iblk m c 2 t) (iblk m c 3 t) (iblk m c 4 t) (iblk m c 5 t) k r p).trans
    (loads_at m c t k r p dxs)

/-! ## The input gradient's block: each step's own value -/

theorem out6 (t : Fin cfg0.N) :
    (outsAt0 m c t.val t.isLt).1 = k0_pay3 (F := Ideal) (k0_pay6 (iblk m c 3 t)) (k0_pay7 (iblk m c 4 t)) (k0_pay9 (F := Ideal) (iblk m c 0 t) (iblk m c 1 t) (iblk m c 2 t) (iblk m c 3 t) (iblk m c 4 t) (iblk m c 5 t)) := by
  by_cases h0 : t.val % 16 = 0
  · rw [outsAt0_A m c t h0]
    dsimp only
    exact out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t)
  · rw [outsAt0_B m c t h0]
    dsimp only
    exact out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t)
      (outsAt0 m c (t.val - 1) (Nat.lt_of_le_of_lt (Nat.sub_le _ _) t.isLt)).2.1
      (outsAt0 m c (t.val - 1) (Nat.lt_of_le_of_lt (Nat.sub_le _ _) t.isLt)).2.2

theorem out6_at (t : Fin cfg0.N) (k : Fin 2) (r : Fin 32) (p : Fin 16384) :
    (outsAt0 m c t.val t.isLt).1 (ix3 k r p) = atK m c dxs (smp t.val k) (chn t.val r) p :=
  (congrFun (out6 m c t) (ix3 k r p)).trans (dxs_blk m c t k r p)

/-! ## The two accumulators: reset, fifteen additions, and the sum they end at -/

/-- The scale gradient's block after the reset step t. -/
def reset7 (t : Fin cfg0.N) : Vec Ideal S32x16384 .f32 :=
  k0_pay1 (F := Ideal) (k0_pay8 (F := Ideal) (iblk m c 1 t) (iblk m c 2 t) (iblk m c 3 t)) (k0_pay9 (F := Ideal) (iblk m c 0 t) (iblk m c 1 t) (iblk m c 2 t) (iblk m c 3 t) (iblk m c 4 t) (iblk m c 5 t)) (k0_pay4 (F := Ideal))

/-- The scale gradient's block after an adding step t, from what it held. -/
def step7 (t : Fin cfg0.N) (acc : Vec Ideal S32x16384 .f32) : Vec Ideal S32x16384 .f32 :=
  k0_pay1 (F := Ideal) (k0_pay8 (F := Ideal) (iblk m c 1 t) (iblk m c 2 t) (iblk m c 3 t)) (k0_pay9 (F := Ideal) (iblk m c 0 t) (iblk m c 1 t) (iblk m c 2 t) (iblk m c 3 t) (iblk m c 4 t) (iblk m c 5 t)) acc

/-- The shift gradient's block after the reset step t. -/
def reset8 (t : Fin cfg0.N) : Vec Ideal S32x16384 .f32 :=
  k0_pay2 (F := Ideal) (k0_pay9 (F := Ideal) (iblk m c 0 t) (iblk m c 1 t) (iblk m c 2 t) (iblk m c 3 t) (iblk m c 4 t) (iblk m c 5 t)) (k0_pay5 (F := Ideal))

/-- The shift gradient's block after an adding step t, from what it held. -/
def step8 (t : Fin cfg0.N) (acc : Vec Ideal S32x16384 .f32) : Vec Ideal S32x16384 .f32 :=
  k0_pay2 (F := Ideal) (k0_pay9 (F := Ideal) (iblk m c 0 t) (iblk m c 1 t) (iblk m c 2 t) (iblk m c 3 t) (iblk m c 4 t) (iblk m c 5 t)) acc

theorem out7_reset (t : Fin cfg0.N) (h0 : t.val % 16 = 0) : (outsAt0 m c t.val t.isLt).2.1 = reset7 m c t := by
  rw [outsAt0_A m c t h0]
  dsimp only
  exact out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t)

theorem out8_reset (t : Fin cfg0.N) (h0 : t.val % 16 = 0) : (outsAt0 m c t.val t.isLt).2.2 = reset8 m c t := by
  rw [outsAt0_A m c t h0]
  dsimp only
  exact out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t)

theorem out7_step (t : Fin cfg0.N) (h0 : ¬t.val % 16 = 0) :
    (outsAt0 m c t.val t.isLt).2.1 = step7 m c t (outsAt0 m c (t.val - 1) (Nat.lt_of_le_of_lt (Nat.sub_le _ _) t.isLt)).2.1 := by
  rw [outsAt0_B m c t h0]
  dsimp only
  exact out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun hc => h0 ((hcond0_0 t).mp hc)) (iblk m c 0 t) (iblk m c 1 t) (iblk m c 2 t) (iblk m c 3 t) (iblk m c 4 t) (iblk m c 5 t)
    (outsAt0 m c (t.val - 1) (Nat.lt_of_le_of_lt (Nat.sub_le _ _) t.isLt)).2.1 (outsAt0 m c (t.val - 1) (Nat.lt_of_le_of_lt (Nat.sub_le _ _) t.isLt)).2.2

theorem out8_step (t : Fin cfg0.N) (h0 : ¬t.val % 16 = 0) :
    (outsAt0 m c t.val t.isLt).2.2 = step8 m c t (outsAt0 m c (t.val - 1) (Nat.lt_of_le_of_lt (Nat.sub_le _ _) t.isLt)).2.2 := by
  rw [outsAt0_B m c t h0]
  dsimp only
  exact out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun hc => h0 ((hcond0_0 t).mp hc)) (iblk m c 0 t) (iblk m c 1 t) (iblk m c 2 t) (iblk m c 3 t) (iblk m c 4 t) (iblk m c 5 t)
    (outsAt0 m c (t.val - 1) (Nat.lt_of_le_of_lt (Nat.sub_le _ _) t.isLt)).2.1 (outsAt0 m c (t.val - 1) (Nat.lt_of_le_of_lt (Nat.sub_le _ _) t.isLt)).2.2

/-- Step n's addend to an accumulator, for a per-sample formula f: the two samples' terms at the step's channels. -/
def addend (f : EReal → EReal → EReal → EReal → EReal → EReal → EReal) (n : ℕ) (i : S32x16384.Idx) : EReal :=
  ∑ k : Fin 2, atK m c f (smp n k) (chn n (i 0)) (i 1)

theorem addend_ix (f : EReal → EReal → EReal → EReal → EReal → EReal → EReal) (n : ℕ) (r : Fin 32) (p : Fin 16384) :
    addend m c f n (ix2 r p) = ∑ k : Fin 2, atK m c f (smp n k) (chn n r) p := rfl

theorem step7_at (t : Fin cfg0.N) (acc : Vec Ideal S32x16384 .f32) (i : S32x16384.Idx) :
    step7 m c t acc i = acc i + addend m c dgs t.val i := by
  obtain ⟨r, p, rfl⟩ : ∃ (r : Fin 32) (p : Fin 16384), i = ix2 r p := ⟨i 0, i 1, eq_ix2 i⟩
  unfold step7
  rw [acc_g_at, addend_ix]
  exact congrArg (acc (ix2 r p) + ·) (Finset.sum_congr rfl fun k _ => dgs_blk m c t k r p)

theorem step8_at (t : Fin cfg0.N) (acc : Vec Ideal S32x16384 .f32) (i : S32x16384.Idx) :
    step8 m c t acc i = acc i + addend m c dys t.val i := by
  obtain ⟨r, p, rfl⟩ : ∃ (r : Fin 32) (p : Fin 16384), i = ix2 r p := ⟨i 0, i 1, eq_ix2 i⟩
  unfold step8
  rw [acc_b_at, addend_ix]
  exact congrArg (acc (ix2 r p) + ·) (Finset.sum_congr rfl fun k _ => dys_blk m c t k r p)

/-- After the last step of its tile the scale gradient's block holds the sum over all samples. -/
theorem out7_last (t : Fin cfg0.N) (hf : t.val % 16 = 15) (r : Fin 32) (p : Fin 16384) :
    (outsAt0 m c t.val t.isLt).2.1 (ix2 r p)
      = Ideal.ofBits .f32 0x00000000#32 + ∑ n : Fin 32, atK m c dgs n (chn t.val r) p := by
  have hN : cfg0.N = 32 := N_0
  have ht : t.val < 32 := lt_of_lt_of_eq t.isLt hN
  have h' : 16 * (t.val / 16) + t.val % 16 < cfg0.N := by rw [Nat.div_add_mod]; exact t.isLt
  have e := Pipeline.eq_accAt_of_mod (fun n h => (outsAt0 m c n h).2.1) 16 (fun n h => reset7 m c ⟨n, h⟩)
    (fun n h acc => step7 m c ⟨n, h⟩ acc)
    (fun n h h0 => out7_reset m c ⟨n, h⟩ h0) (fun n h h0 => out7_step m c ⟨n + 1, h⟩ h0) (by decide) t.val t.isLt h'
  have hj : t.val % 16 ≤ 15 := by omega
  have s := Pipeline.accAt_add_apply (fun n h => reset7 m c ⟨n, h⟩) (fun n h acc => step7 m c ⟨n, h⟩ acc)
    (fun _ => Ideal.ofBits .f32 0x00000000#32) (addend m c dgs) (16 * (t.val / 16)) 15
    (fun h i => (step7_at m c ⟨16 * (t.val / 16), h⟩ (k0_pay4 (F := Ideal)) i).trans (by
      obtain ⟨r', p', rfl⟩ : ∃ (r' : Fin 32) (p' : Fin 16384), i = ix2 r' p' := ⟨i 0, i 1, eq_ix2 i⟩
      rfl))
    (fun n h acc i _ _ => step7_at m c ⟨n, h⟩ acc i) (t.val % 16) hj h' (ix2 r p)
  refine (congrFun e (ix2 r p)).trans (s.trans ?_)
  rw [hf]
  refine congrArg (_ + ·) ?_
  have q := tile_sum (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) dgs (t.val / 16) r p
  have ech : chn (16 * (t.val / 16)) r = chn t.val r :=
    Fin.ext (by show 32 * (16 * (t.val / 16) / 16 % 2) + r.val = 32 * (t.val / 16 % 2) + r.val; omega)
  rw [ech] at q
  exact q

/-- After the last step of its tile the shift gradient's block holds the sum over all samples. -/
theorem out8_last (t : Fin cfg0.N) (hf : t.val % 16 = 15) (r : Fin 32) (p : Fin 16384) :
    (outsAt0 m c t.val t.isLt).2.2 (ix2 r p)
      = Ideal.ofBits .f32 0x00000000#32 + ∑ n : Fin 32, atK m c dys n (chn t.val r) p := by
  have hN : cfg0.N = 32 := N_0
  have ht : t.val < 32 := lt_of_lt_of_eq t.isLt hN
  have h' : 16 * (t.val / 16) + t.val % 16 < cfg0.N := by rw [Nat.div_add_mod]; exact t.isLt
  have e := Pipeline.eq_accAt_of_mod (fun n h => (outsAt0 m c n h).2.2) 16 (fun n h => reset8 m c ⟨n, h⟩)
    (fun n h acc => step8 m c ⟨n, h⟩ acc)
    (fun n h h0 => out8_reset m c ⟨n, h⟩ h0) (fun n h h0 => out8_step m c ⟨n + 1, h⟩ h0) (by decide) t.val t.isLt h'
  have hj : t.val % 16 ≤ 15 := by omega
  have s := Pipeline.accAt_add_apply (fun n h => reset8 m c ⟨n, h⟩) (fun n h acc => step8 m c ⟨n, h⟩ acc)
    (fun _ => Ideal.ofBits .f32 0x00000000#32) (addend m c dys) (16 * (t.val / 16)) 15
    (fun h i => (step8_at m c ⟨16 * (t.val / 16), h⟩ (k0_pay5 (F := Ideal)) i).trans (by
      obtain ⟨r', p', rfl⟩ : ∃ (r' : Fin 32) (p' : Fin 16384), i = ix2 r' p' := ⟨i 0, i 1, eq_ix2 i⟩
      rfl))
    (fun n h acc i _ _ => step8_at m c ⟨n, h⟩ acc i) (t.val % 16) hj h' (ix2 r p)
  refine (congrFun e (ix2 r p)).trans (s.trans ?_)
  rw [hf]
  refine congrArg (_ + ·) ?_
  have q := tile_sum (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) dys (t.val / 16) r p
  have ech : chn (16 * (t.val / 16)) r = chn t.val r :=
    Fin.ext (by show 32 * (16 * (t.val / 16) / 16 % 2) + r.val = 32 * (t.val / 16 % 2) + r.val; omega)
  rw [ech] at q
  exact q

end Cert.KernelIdeal.Accum

end
-- ==== Proof.Final.lean ====
/-
  From blocks to arrays, and the lines after the kernel.

  Each step writes the input gradient's block back, and the 32 blocks tile the [32, 64, 16384] array: sample n and
  channel ch lie in the block of step 16 (ch / 32) + n / 2. The two parameter gradients are written back at the
  last step of each channel tile only, and the two [32, 16384] blocks tile the [64, 16384] array. So after the run
  each array holds, entry by entry, the merged-layout result of Merged. The three lines after the kernel split
  the channel axis into group and member again, which gives the results of Spec.
-/
import proofs.«133069_j22265110462509_2_alg».proof.Proof.Accum
import Idealize.ShloMosaic.Lib.Pipeline.FrameSuffix

set_option maxRecDepth 16384

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.Spec
open Cert.KernelIdeal.Blocks Cert.KernelIdeal.Accum

variable (m : (ℓ : Loc nD τ sig) → Buf (Elt Ideal) ℓ) (ρ : Dev nD → PrngReg) (c : Dev nD)

/-- The input gradient in the merged layout, of the launch memory. -/
def H6 : S32x64x16384.Idx → EReal := Hdx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The scale gradient in the merged layout, of the launch memory. -/
def H7 : S64x16384.Idx → EReal := Hdg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The shift gradient in the merged layout, of the launch memory. -/
def H8 : S64x16384.Idx → EReal := Hdb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-! ## The input gradient: one block per step -/

/-- Entry (k, r, p) of the block of output 6 at step t sits at the step's sample and channel. -/
theorem emb6 (t : Fin cfg0.N) (k : Fin 2) (r : Fin 32) (p : Fin 16384) :
    ((cfg0.win 6).blk t).view.emb (ix3 k r p) = ix3 (smp t.val k) (chn t.val r) p := by
  obtain ⟨e0, e1, e2⟩ := idx6 t
  have hN : t.val < 32 := lt_of_lt_of_eq t.isLt N_0
  have hk := k.isLt; have hr := r.isLt; have hp := p.isLt
  funext a; apply Fin.ext
  match a with
  | ⟨0, _⟩ => show win0_6.index t (0 : Fin 3) * 2 + 1 * k.val = 2 * (t.val % 16) + k.val; omega
  | ⟨1, _⟩ => show win0_6.index t (1 : Fin 3) * 32 + 1 * r.val = 32 * (t.val / 16 % 2) + r.val; omega
  | ⟨2, _⟩ => show win0_6.index t (2 : Fin 3) * 16384 + 1 * p.val = p.val; omega

/-- An index of the array is in step t's block iff each coordinate is in the block's range on its axis. -/
theorem mem_blk6 (t : Fin cfg0.N) (i : S32x64x16384.Idx) :
    i ∈ ((cfg0.win 6).blk t).view.set ↔ ∀ a : Fin 3, win0_6.index t a * S2x32x16384.size a ≤ (i a).val
      ∧ (i a).val < win0_6.index t a * S2x32x16384.size a + S2x32x16384.size a := by
  show i ∈ ((View.whole main_v8_0).slice (win0_6.rect t)).set ↔ _
  rw [View.set_slice_whole, Rect.mem_set_unit]
  exact Iff.rfl

/-- What step t writes back is its block of the merged-layout input gradient. -/
theorem flushed6 (t : Fin cfg0.N) :
    (dats m 0 c).flushed 6 t = ((cfg0.win 6).blk t).view.read (Elt Ideal) (H6 m c) := by
  show (cfg0.win 6).cut (grid0.coords t) ((dats m 0 c).after 6 t) = _
  rw [after0_6]
  funext j
  obtain ⟨k, r, p, rfl⟩ : ∃ (k : Fin 2) (r : Fin 32) (p : Fin 16384), j = ix3 k r p := ⟨j 0, j 1, j 2, eq_ix3 j⟩
  show (outsAt0 m c t.val t.isLt).1 (ix3 k r p) = H6 m c (((cfg0.win 6).blk t).view.emb (ix3 k r p))
  rw [out6_at, emb6]
  rfl

/-- Every sample and channel lies in the block of exactly the step of its pair and its tile. -/
theorem cover6 (i : S32x64x16384.Idx) :
    ∃ t : Fin cfg0.N, (cfg0.win 6).flush t = true ∧ i ∈ ((cfg0.win 6).blk t).view.set := by
  have h0 : (i 0).val < 32 := (i 0).isLt
  have h1 : (i 1).val < 64 := (i 1).isLt
  have h2 : (i 2).val < 16384 := (i 2).isLt
  let t : Fin cfg0.N := ⟨16 * ((i 1).val / 32) + (i 0).val / 2,
    lt_of_lt_of_eq (by omega : 16 * ((i 1).val / 32) + (i 0).val / 2 < 32) N_0.symm⟩
  have htv : t.val = 16 * ((i 1).val / 32) + (i 0).val / 2 := rfl
  obtain ⟨e0, e1, e2⟩ := idx6 t
  refine ⟨t, flush0_6 t, ?_⟩
  rw [mem_blk6]
  intro a
  match a with
  | ⟨0, _⟩ =>
    show win0_6.index t (0 : Fin 3) * 2 ≤ (i 0).val ∧ (i 0).val < win0_6.index t (0 : Fin 3) * 2 + 2
    rw [e0, htv]; omega
  | ⟨1, _⟩ =>
    show win0_6.index t (1 : Fin 3) * 32 ≤ (i 1).val ∧ (i 1).val < win0_6.index t (1 : Fin 3) * 32 + 32
    rw [e1, htv]; omega
  | ⟨2, _⟩ =>
    show win0_6.index t (2 : Fin 3) * 16384 ≤ (i 2).val ∧ (i 2).val < win0_6.index t (2 : Fin 3) * 16384 + 16384
    rw [e2]; omega

/-- So the array ends holding the merged-layout input gradient. -/
theorem final6 : (dats m 0 c).arrAt 6 cfg0.N = H6 m c :=
  (dats m 0 c).arrAt_eq_of_cover 6 (H6 m c) (fun t _ => flushed6 m c t) (cover6)

/-! ## The scale gradient: one block per channel tile -/

/-- Entry (r, p) of the block of output 7 at step t sits at the step's channel. -/
theorem emb7 (t : Fin cfg0.N) (r : Fin 32) (p : Fin 16384) :
    ((cfg0.win 7).blk t).view.emb (ix2 r p) = ix2 (chn t.val r) p := by
  obtain ⟨e0, e1⟩ := idx7 t
  have hN : t.val < 32 := lt_of_lt_of_eq t.isLt N_0
  have hr := r.isLt; have hp := p.isLt
  funext a; apply Fin.ext
  match a with
  | ⟨0, _⟩ => show win0_7.index t (0 : Fin 2) * 32 + 1 * r.val = 32 * (t.val / 16 % 2) + r.val; omega
  | ⟨1, _⟩ => show win0_7.index t (1 : Fin 2) * 16384 + 1 * p.val = p.val; omega

/-- An index of the array is in step t's block iff each coordinate is in the block's range on its axis. -/
theorem mem_blk7 (t : Fin cfg0.N) (i : S64x16384.Idx) :
    i ∈ ((cfg0.win 7).blk t).view.set ↔ ∀ a : Fin 2, win0_7.index t a * S32x16384.size a ≤ (i a).val
      ∧ (i a).val < win0_7.index t a * S32x16384.size a + S32x16384.size a := by
  show i ∈ ((View.whole main_v8_1).slice (win0_7.rect t)).set ↔ _
  rw [View.set_slice_whole, Rect.mem_set_unit]
  exact Iff.rfl

/-- What the last step of a channel tile writes back is the tile's block of the sums over the samples. -/
theorem flushed7 (t : Fin cfg0.N) (hf : (cfg0.win 7).flush t = true) :
    (dats m 0 c).flushed 7 t = ((cfg0.win 7).blk t).view.read (Elt Ideal) (H7 m c) := by
  have h15 : t.val % 16 = 15 := (flush0_7 t).mp hf
  show (cfg0.win 7).cut (grid0.coords t) ((dats m 0 c).after 7 t) = _
  rw [after0_7]
  funext j
  obtain ⟨r, p, rfl⟩ : ∃ (r : Fin 32) (p : Fin 16384), j = ix2 r p := ⟨j 0, j 1, eq_ix2 j⟩
  show (outsAt0 m c t.val t.isLt).2.1 (ix2 r p) = H7 m c (((cfg0.win 7).blk t).view.emb (ix2 r p))
  rw [out7_last m c t h15, emb7]
  rfl

/-- Every channel lies in one of the two tiles, whose last step writes its block back. -/
theorem cover7 (i : S64x16384.Idx) :
    ∃ t : Fin cfg0.N, (cfg0.win 7).flush t = true ∧ i ∈ ((cfg0.win 7).blk t).view.set := by
  have h0 : (i 0).val < 64 := (i 0).isLt
  have h1 : (i 1).val < 16384 := (i 1).isLt
  let t : Fin cfg0.N := ⟨16 * ((i 0).val / 32) + 15, lt_of_lt_of_eq (by omega : 16 * ((i 0).val / 32) + 15 < 32) N_0.symm⟩
  have htv : t.val = 16 * ((i 0).val / 32) + 15 := rfl
  obtain ⟨e0, e1⟩ := idx7 t
  refine ⟨t, (flush0_7 t).mpr (by rw [htv]; omega), ?_⟩
  rw [mem_blk7]
  intro a
  match a with
  | ⟨0, _⟩ =>
    show win0_7.index t (0 : Fin 2) * 32 ≤ (i 0).val ∧ (i 0).val < win0_7.index t (0 : Fin 2) * 32 + 32
    rw [e0, htv]; omega
  | ⟨1, _⟩ =>
    show win0_7.index t (1 : Fin 2) * 16384 ≤ (i 1).val ∧ (i 1).val < win0_7.index t (1 : Fin 2) * 16384 + 16384
    rw [e1]; omega

/-- So the array ends holding the sums over the samples, channel by channel. -/
theorem final7 : (dats m 0 c).arrAt 7 cfg0.N = H7 m c :=
  (dats m 0 c).arrAt_eq_of_cover 7 (H7 m c) (flushed7 m c) (cover7)

/-! ## The shift gradient: one block per channel tile -/

/-- Entry (r, p) of the block of output 8 at step t sits at the step's channel. -/
theorem emb8 (t : Fin cfg0.N) (r : Fin 32) (p : Fin 16384) :
    ((cfg0.win 8).blk t).view.emb (ix2 r p) = ix2 (chn t.val r) p := by
  obtain ⟨e0, e1⟩ := idx8 t
  have hN : t.val < 32 := lt_of_lt_of_eq t.isLt N_0
  have hr := r.isLt; have hp := p.isLt
  funext a; apply Fin.ext
  match a with
  | ⟨0, _⟩ => show win0_8.index t (0 : Fin 2) * 32 + 1 * r.val = 32 * (t.val / 16 % 2) + r.val; omega
  | ⟨1, _⟩ => show win0_8.index t (1 : Fin 2) * 16384 + 1 * p.val = p.val; omega

/-- An index of the array is in step t's block iff each coordinate is in the block's range on its axis. -/
theorem mem_blk8 (t : Fin cfg0.N) (i : S64x16384.Idx) :
    i ∈ ((cfg0.win 8).blk t).view.set ↔ ∀ a : Fin 2, win0_8.index t a * S32x16384.size a ≤ (i a).val
      ∧ (i a).val < win0_8.index t a * S32x16384.size a + S32x16384.size a := by
  show i ∈ ((View.whole main_v8_2).slice (win0_8.rect t)).set ↔ _
  rw [View.set_slice_whole, Rect.mem_set_unit]
  exact Iff.rfl

/-- What the last step of a channel tile writes back is the tile's block of the sums over the samples. -/
theorem flushed8 (t : Fin cfg0.N) (hf : (cfg0.win 8).flush t = true) :
    (dats m 0 c).flushed 8 t = ((cfg0.win 8).blk t).view.read (Elt Ideal) (H8 m c) := by
  have h15 : t.val % 16 = 15 := (flush0_8 t).mp hf
  show (cfg0.win 8).cut (grid0.coords t) ((dats m 0 c).after 8 t) = _
  rw [after0_8]
  funext j
  obtain ⟨r, p, rfl⟩ : ∃ (r : Fin 32) (p : Fin 16384), j = ix2 r p := ⟨j 0, j 1, eq_ix2 j⟩
  show (outsAt0 m c t.val t.isLt).2.2 (ix2 r p) = H8 m c (((cfg0.win 8).blk t).view.emb (ix2 r p))
  rw [out8_last m c t h15, emb8]
  rfl

/-- Every channel lies in one of the two tiles, whose last step writes its block back. -/
theorem cover8 (i : S64x16384.Idx) :
    ∃ t : Fin cfg0.N, (cfg0.win 8).flush t = true ∧ i ∈ ((cfg0.win 8).blk t).view.set := by
  have h0 : (i 0).val < 64 := (i 0).isLt
  have h1 : (i 1).val < 16384 := (i 1).isLt
  let t : Fin cfg0.N := ⟨16 * ((i 0).val / 32) + 15, lt_of_lt_of_eq (by omega : 16 * ((i 0).val / 32) + 15 < 32) N_0.symm⟩
  have htv : t.val = 16 * ((i 0).val / 32) + 15 := rfl
  obtain ⟨e0, e1⟩ := idx8 t
  refine ⟨t, (flush0_8 t).mpr (by rw [htv]; omega), ?_⟩
  rw [mem_blk8]
  intro a
  match a with
  | ⟨0, _⟩ =>
    show win0_8.index t (0 : Fin 2) * 32 ≤ (i 0).val ∧ (i 0).val < win0_8.index t (0 : Fin 2) * 32 + 32
    rw [e0, htv]; omega
  | ⟨1, _⟩ =>
    show win0_8.index t (1 : Fin 2) * 16384 ≤ (i 1).val ∧ (i 1).val < win0_8.index t (1 : Fin 2) * 16384 + 16384
    rw [e1]; omega

/-- So the array ends holding the sums over the samples, channel by channel. -/
theorem final8 : (dats m 0 c).arrAt 8 cfg0.N = H8 m c :=
  (dats m 0 c).arrAt_eq_of_cover 8 (H8 m c) (flushed8 m c) (cover8)

/-! ## The lines after the kernel -/

/-- The first line lays the input gradient out per group and member again. -/
theorem res9 : Pipeline.afterTail₀ cfgs (dats m) 0 (V0 m) [hostOps1] c main_v9 = Gdx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e : Pipeline.afterTail₀ cfgs (dats m) 0 (V0 m) [hostOps1] c main_v9
      = shapeCast S32x32x2x16384 ((dats m 0 c).arrAt 6 cfg0.N) shapeCasts_S32x64x16384_S32x32x2x16384 := by
    unfold Pipeline.afterTail₀
    show StableHlo.after hostOps1 _ (Proc.devRef .tc main_v9) = _
    after_results
    exact congrArg (fun x => shapeCast S32x32x2x16384 x shapeCasts_S32x64x16384_S32x32x2x16384)
      (Pipeline.withArrays_arr spec0 launch0.win.arr_inj c _ _ 6)
  rw [e, final6]
  funext i
  obtain ⟨n, g, cg, p, rfl⟩ : ∃ (n : Fin 32) (g : Fin 32) (cg : Fin 2) (p : Fin 16384), i = ix4 n g cg p :=
    ⟨i 0, i 1, i 2, i 3, eq_ix4 i⟩
  refine (shapeCast_apply _ _ (ix4 n g cg p) (ix3 n (chan g cg) p) (by
    have := n.isLt; have := g.isLt; have := cg.isLt; have := p.isLt
    rw [Shape.rowMajor_val_three, Shape.rowMajor_val_four]
    show (n.val * 64 + (2 * g.val + cg.val)) * 16384 + p.val = ((n.val * 32 + g.val) * 2 + cg.val) * 16384 + p.val
    omega)).trans ?_
  unfold H6
  rw [Hdx_ix, Gdx_ix]
  exact atM_chan _ _ _ _ _ _ _ n g cg p

/-- The last line lays the scale gradient out per group and member again. -/
theorem res10 : Pipeline.afterTail₀ cfgs (dats m) 0 (V0 m) [hostOps1] c main_v10 = Gdg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e : Pipeline.afterTail₀ cfgs (dats m) 0 (V0 m) [hostOps1] c main_v10
      = shapeCast S32x2x16384 ((dats m 0 c).arrAt 7 cfg0.N) shapeCasts_S64x16384_S32x2x16384 := by
    unfold Pipeline.afterTail₀
    show StableHlo.after hostOps1 _ (Proc.devRef .tc main_v10) = _
    after_results
    exact congrArg (fun x => shapeCast S32x2x16384 x shapeCasts_S64x16384_S32x2x16384)
      (Pipeline.withArrays_arr spec0 launch0.win.arr_inj c _ _ 7)
  rw [e, final7]
  funext i
  obtain ⟨g, cg, p, rfl⟩ : ∃ (g : Fin 32) (cg : Fin 2) (p : Fin 16384), i = ix3 g cg p := ⟨i 0, i 1, i 2, eq_ix3 i⟩
  refine (shapeCast_apply _ _ (ix3 g cg p) (ix2 (chan g cg) p) (by
    have := g.isLt; have := cg.isLt; have := p.isLt
    rw [Shape.rowMajor_val_two, Shape.rowMajor_val_three]
    show (2 * g.val + cg.val) * 16384 + p.val = (g.val * 2 + cg.val) * 16384 + p.val
    omega)).trans ?_
  unfold H7
  rw [Hdg_ix, Gdg_ix]
  exact congrArg (_ + ·) (Finset.sum_congr rfl fun n _ => atM_chan _ _ _ _ _ _ _ n g cg p)

/-- The last line lays the shift gradient out per group and member again. -/
theorem res11 : Pipeline.afterTail₀ cfgs (dats m) 0 (V0 m) [hostOps1] c main_v11 = Gdb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e : Pipeline.afterTail₀ cfgs (dats m) 0 (V0 m) [hostOps1] c main_v11
      = shapeCast S32x2x16384 ((dats m 0 c).arrAt 8 cfg0.N) shapeCasts_S64x16384_S32x2x16384 := by
    unfold Pipeline.afterTail₀
    show StableHlo.after hostOps1 _ (Proc.devRef .tc main_v11) = _
    after_results
    exact congrArg (fun x => shapeCast S32x2x16384 x shapeCasts_S64x16384_S32x2x16384)
      (Pipeline.withArrays_arr spec0 launch0.win.arr_inj c _ _ 8)
  rw [e, final8]
  funext i
  obtain ⟨g, cg, p, rfl⟩ : ∃ (g : Fin 32) (cg : Fin 2) (p : Fin 16384), i = ix3 g cg p := ⟨i 0, i 1, i 2, eq_ix3 i⟩
  refine (shapeCast_apply _ _ (ix3 g cg p) (ix2 (chan g cg) p) (by
    have := g.isLt; have := cg.isLt; have := p.isLt
    rw [Shape.rowMajor_val_two, Shape.rowMajor_val_three]
    show (2 * g.val + cg.val) * 16384 + p.val = (g.val * 2 + cg.val) * 16384 + p.val
    omega)).trans ?_
  unfold H8
  rw [Hdb_ix, Gdb_ix]
  exact congrArg (_ + ·) (Finset.sum_congr rfl fun n _ => atM_chan _ _ _ _ _ _ _ n g cg p)

/-! ## The run, read -/

/-- Every weakly fair execution of the kernel's program ends with its three results at the functions of Spec of
    the launch memory's arguments, and the arguments unchanged. -/
theorem run : θ_run defs (onTc (τ := τ) (main (F := Ideal))) ⟨m, fun _ => 0, ρ⟩ (fun r => ∀ c : Dev nD,
      r.2.mem ((c.tc : Thread nD τ).loc main_v9) = Gdx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v10) = Gdg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v11) = Gdb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v9 (Pipeline.mem_restRefs_of main_v9 (by decide) (by decide))).trans (res9 m c),
      ((h c).2 main_v10 (Pipeline.mem_restRefs_of main_v10 (by decide) (by decide))).trans (res10 m c),
      ((h c).2 main_v11 (Pipeline.mem_restRefs_of main_v11 (by decide) (by decide))).trans (res11 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Final

end
-- ==== Proof.lean ====
/-
  The backward pass of group normalisation followed by swish, as one tiled kernel, against its plain reference.

  Both programs compute, for every sample n, channel ch and position p, the gradient through swish
  dys = dy * (s + ((o * s) * (1 - s)) * 1) with o = ((x - mu) * rs) * g + b and s the logistic gate of o, the input
  gradient (dys * g) * rs, and the two parameter gradients as sums over the 32 samples of dys * ((x - mu) * rs) and
  of dys. The kernel works with the group and member axes merged into one channel axis and accumulates the sums
  two samples at a time over sixteen steps per channel tile; the reference works per group and member and sums
  all 32 samples at once. On the extended reals the two agree entry by entry: the pointwise formulas are the same
  terms in the same order (the kernel's logistic gate is by definition the quotient the reference spells out, the
  float word of 1.0 being the number one), the re-layouts are re-indexings, and a sum of 32 terms is the sum of its
  sixteen consecutive pairs, which needs only that addition is associative. Nothing here uses that the inputs are
  finite.

  Spec states the formulas and the results; RefValue reads the reference at an index; Pieces, Payload, Blocks,
  Accum and Final read the kernel: one run of its body, the body's arithmetic at an entry, where the blocks sit,
  the fold over a tile's steps, and the arrays after the run with the lines that follow it.
-/
import proofs.«133069_j22265110462509_2_alg».proof.Defs
import proofs.«133069_j22265110462509_2_alg».proof.Proof.Gen.Kernel
import proofs.«133069_j22265110462509_2_alg».proof.Proof.Gen.Kernel.Skeleton
import proofs.«133069_j22265110462509_2_alg».proof.Proof.Gen.Kernel.Launch
import proofs.«133069_j22265110462509_2_alg».proof.Proof.Gen.Kernel.Points
import proofs.«133069_j22265110462509_2_alg».proof.Proof.Gen.Kernel.Frame
import proofs.«133069_j22265110462509_2_alg».proof.Proof.Gen.KernelIdeal
import proofs.«133069_j22265110462509_2_alg».proof.Proof.Gen.KernelIdeal.Skeleton
import proofs.«133069_j22265110462509_2_alg».proof.Proof.Gen.KernelIdeal.Launch
import proofs.«133069_j22265110462509_2_alg».proof.Proof.Gen.KernelIdeal.Points
import proofs.«133069_j22265110462509_2_alg».proof.Proof.Gen.KernelIdeal.Frame
import proofs.«133069_j22265110462509_2_alg».proof.Proof.Gen.ReferenceIdeal
import proofs.«133069_j22265110462509_2_alg».proof.Proof.Gen.Pre_finite_inputs
import proofs.«133069_j22265110462509_2_alg».proof.Proof.Gen.ReferenceIdeal.Run
import proofs.«133069_j22265110462509_2_alg».proof.Proof.Gen.ReferenceIdeal.Read
import proofs.«133069_j22265110462509_2_alg».proof.Proof.RefValue
import proofs.«133069_j22265110462509_2_alg».proof.Proof.Final
import Idealize.ShloMosaic.Adequacy
import Idealize.ShloMosaic.Init

noncomputable section

namespace Cert.Proof

open Idealize.ShloMosaic Idealize.SL.Sem Cert.Kernel

/-- Each program runs to the end without a fault and leaves its arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The idealized kernel is the kernel's own text read on the extended reals: nothing was rewritten. -/
theorem preserves : Cert.preserves_Kernel_KernelIdeal := trivial

/-- From memories that agree on the six arguments both programs end with the same three results: the functions
    of Spec of those arguments. -/
theorem algebraic : Cert.algebraic_KernelIdeal_ReferenceIdeal := by
  intro m ρ m' ρ' _ hagree
  refine ⟨fun c => Cert.Spec.Gdx (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Spec.Gdg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Spec.Gdb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Final.run m ρ, ?_⟩
  refine (θ_run Cert.ReferenceIdeal.defs _ _).mono (fun _ h c => ?_) (Cert.ReferenceIdeal.Value.run (F := Ideal) m' ρ')
  obtain ⟨h34, h28, h29, hargs⟩ := h c
  obtain ⟨a0, a1, a2, a3, a4, a5⟩ := hagree c
  refine ⟨h34.trans ?_, h28.trans ?_, h29.trans ?_, hargs⟩
  · rw [Cert.ReferenceIdeal.Read.val_main_v34_eq, Cert.RefValue.ref_dx, a0, a1, a2, a3, a4, a5]
  · rw [Cert.ReferenceIdeal.Read.val_main_v28_eq, Cert.RefValue.ref_dgamma, a0, a1, a2, a3, a4, a5]
  · rw [Cert.ReferenceIdeal.Read.val_main_v29_eq, Cert.RefValue.ref_dbeta, a0, a1, a2, a3, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
